-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x20 : Shape := ⟨2, ![16384, 20]⟩
abbrev S100000x128 : Shape := ⟨2, ![100000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S256x1 .f32) (main_arg8 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S16384 32) (main_arg1 : IVec S16384x20 32) (main_arg2 : FVec F S100000x128 .f32) (main_arg3 : FVec F S256x256 .f32) (main_arg4 : FVec F S256 .f32) (main_arg5 : FVec F S256x128 .f32) (main_arg6 : FVec F S128 .f32) (main_arg7 : FVec F S256x1 .f32) (main_arg8 : FVec F S1 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S16384 : Shape := ⟨1, ![16384]⟩
abbrev S16384x20 : Shape := ⟨2, ![16384, 20]⟩
abbrev S100000x128 : Shape := ⟨2, ![100000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S16384x1 : Shape := ⟨2, ![16384, 1]⟩
abbrev S16384x128 : Shape := ⟨2, ![16384, 128]⟩
abbrev S20x16384 : Shape := ⟨2, ![20, 16384]⟩
abbrev S20x16384x1 : Shape := ⟨3, ![20, 16384, 1]⟩
abbrev S20x16384x128 : Shape := ⟨3, ![20, 16384, 128]⟩
abbrev S128x256 : Shape := ⟨2, ![128, 256]⟩
abbrev S2048x128 : Shape := ⟨2, ![2048, 128]⟩
abbrev S20x2048x128 : Shape := ⟨3, ![20, 2048, 128]⟩
abbrev S2048x1 : Shape := ⟨2, ![2048, 1]⟩
abbrev S1x256 : Shape := ⟨2, ![1, 256]⟩
abbrev S2048x256 : Shape := ⟨2, ![2048, 256]⟩
abbrev S1x2048x128 : Shape := ⟨3, ![1, 2048, 128]⟩
abbrev S1x128 : Shape := ⟨2, ![1, 128]⟩
abbrev S1x1 : Shape := ⟨2, ![1, 1]⟩

abbrev nBuf : Space → Nat
  | .hbm => 37
  | .vmem => 15
  | .smem => 0
  | _ => 0

abbrev bufTy : (tb : Table) → Fin (tcTables nBuf tb) → BufTy
  | .hbm, ⟨0, _⟩ => ⟨S16384, .i32⟩
  | .hbm, ⟨1, _⟩ => ⟨S16384x20, .i32⟩
  | .hbm, ⟨2, _⟩ => ⟨S100000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x1, .f32⟩
  | .hbm, ⟨8, _⟩ => ⟨S1, .f32⟩
  | .hbm, ⟨9, _⟩ => ⟨S100000x128, .bf16⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x128, .bf16⟩
  | .hbm, ⟨19, _⟩ => ⟨S20x16384, .i32⟩
  | .hbm, ⟨20, _⟩ => ⟨S_, .i32⟩
  | .hbm, ⟨21, _⟩ => ⟨S20x16384, .i32⟩
  | .hbm, ⟨22, _⟩ => ⟨S20x16384, .i1⟩
  | .hbm, ⟨23, _⟩ => ⟨S_, .i32⟩
  | .hbm, ⟨24, _⟩ => ⟨S20x16384, .i32⟩
  | .hbm, ⟨25, _⟩ => ⟨S20x16384, .i32⟩
  | .hbm, ⟨26, _⟩ => ⟨S20x16384, .i32⟩
  | .hbm, ⟨27, _⟩ => ⟨S20x16384x1, .i32⟩
  | .hbm, ⟨28, _⟩ => ⟨S20x16384x128, .bf16⟩
  | .hbm, ⟨29, _⟩ => ⟨S128x256, .f32⟩
  | .hbm, ⟨30, _⟩ => ⟨S128x256, .bf16⟩
  | .hbm, ⟨31, _⟩ => ⟨S128x256, .f32⟩
  | .hbm, ⟨32, _⟩ => ⟨S128x256, .bf16⟩
  | .hbm, ⟨33, _⟩ => ⟨S256x128, .bf16⟩
  | .hbm, ⟨34, _⟩ => ⟨S256x1, .bf16⟩
  | .hbm, ⟨35, _⟩ => ⟨S16384x128, .f32⟩
  | .hbm, ⟨36, _⟩ => ⟨S16384x1, .f32⟩
  | .local _ .vmem, ⟨0, _⟩ => ⟨S2048x128, .bf16⟩
  | .local _ .vmem, ⟨1, _⟩ => ⟨S2048x128, .bf16⟩
  | .local _ .vmem, ⟨2, _⟩ => ⟨S20x2048x128, .bf16⟩
  | .local _ .vmem, ⟨3, _⟩ => ⟨S20x2048x128, .bf16⟩
  | .local _ .vmem, ⟨4, _⟩ => ⟨S128x256, .bf16⟩
  | .local _ .vmem, ⟨5, _⟩ => ⟨S128x256, .bf16⟩
  | .local _ .vmem, ⟨6, _⟩ => ⟨S256, .f32⟩
  | .local _ .vmem, ⟨7, _⟩ => ⟨S256x128, .bf16⟩
  | .local _ .vmem, ⟨8, _⟩ => ⟨S128, .f32⟩
  | .local _ .vmem, ⟨9, _⟩ => ⟨S256x1, .bf16⟩
  | .local _ .vmem, ⟨10, _⟩ => ⟨S1, .f32⟩
  | .local _ .vmem, ⟨11, _⟩ => ⟨S2048x128, .f32⟩
  | .local _ .vmem, ⟨12, _⟩ => ⟨S2048x128, .f32⟩
  | .local _ .vmem, ⟨13, _⟩ => ⟨S2048x1, .f32⟩
  | .local _ .vmem, ⟨14, _⟩ => ⟨S2048x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c20_i32 : BitVec 32 := 20#32
  let v10 : BitVec 32 := Scalar.addi c0_i32 c20_i32
  let c1_i32 : BitVec 32 := 1#32
  ⟨c0_i32, v10, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v30 : Index := Scalar.indexCast arg12
  let c0_20 : Index := 0#32
  let c0_21 : Index := 0#32
  ![v30.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S_S16384 : S_.BroadcastsInDim S16384 (![] : Fin 0 → Fin S16384.rank)
  bcast_S16384_S16384x1_0 : S16384.BroadcastsInDim S16384x1 (![0] : Fin 1 → Fin S16384x1.rank)
  transposes_S16384x20_S20x16384_1_0 : S16384x20.Transposes [1, 0] S20x16384
  bcast_S_S20x16384 : S_.BroadcastsInDim S20x16384 (![] : Fin 0 → Fin S20x16384.rank)
  bcast_S20x16384_S20x16384x1_0_1 : S20x16384.BroadcastsInDim S20x16384x1 (![0, 1] : Fin 2 → Fin S20x16384x1.rank)
  slices_S256x256_S128x256_0_0 : S256x256.Slices ![0, 0] S128x256
  slices_S256x256_S128x256_128_0 : S256x256.Slices ![128, 0] S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1x2048x128 : 0 < S1x2048x128.numel
  shapeCasts_S1x2048x128_S2048x128 : S1x2048x128.ShapeCasts S2048x128
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S100000x128_S16384x1_S16384x128_1_0_n_n_0_1_1128_wf : GatherDims.WF S100000x128 S16384x1 S16384x128 [1] [0] [] [0] [] 1 ![1, 128]
  gather_S100000x128_S20x16384x1_S20x16384x128_2_0_n_n_0_2_1128_wf : GatherDims.WF S100000x128 S20x16384x1 S20x16384x128 [2] [0] [] [0] [] 2 ![1, 128]
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S2048x256_S256x1_S2048x1_1_0_0_1_n_n_wf : DotDims.WF S2048x256 S256x1 S2048x1 [1] [0] [0] [1] [] []
  hrank0 : 0 < grid0.rank
  k0_t1_ok : k0_t1_loop.OK
  k0_off1_inb : ∀ k0_t1 : Fin k0_t1_loop.trips, ∀ a, (k0_off1 k0_t1) a + S1x2048x128.size a ≤ S20x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20x2048x128.size a ≤ S20x16384x128.size a
  hwx0_1 : ∀ i : grid0.Coords, EltTy.bits .bf16 = 32 ∨ (Rect.block (s := S20x16384x128) S20x2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .bf16 = 32 ∨ (Rect.block (s := S256x1) S256x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S16384x128.size a
  hwx0_9 : ∀ i : grid0.Coords, EltTy.bits .f32 = 32 ∨ (Rect.block (s := S16384x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x1.size a ≤ S16384x1.size a
  hwx0_10 : ∀ i : grid0.Coords, EltTy.bits .f32 = 32 ∨ (Rect.block (s := S16384x1) S2048x1.size (cc0_transform_10 i) (hinb0_10 i)).WholeWords (EltTy.packing .f32)

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S100000x128_S20x16384x1_S20x16384x128_2_0_n_n_0_2_1128 : GatherDims S100000x128 S20x16384x1 S20x16384x128 where
  offsetDims := [2]
  collapsedSliceDims := [0]
  operandBatchingDims := []
  startIndicesBatchingDims := []
  startIndexMap := [0]
  indexVectorDim := 2
  sliceSizes := ![1, 128]
  wf := gather_S100000x128_S20x16384x1_S20x16384x128_2_0_n_n_0_2_1128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v7) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S20x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22_0) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v22_1) S2048x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384 : Shape := ⟨1, ![16384]⟩
abbrev S16384x20 : Shape := ⟨2, ![16384, 20]⟩
abbrev S100000x128 : Shape := ⟨2, ![100000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S16384x1 : Shape := ⟨2, ![16384, 1]⟩
abbrev S16384x128 : Shape := ⟨2, ![16384, 128]⟩
abbrev S16384x20x1 : Shape := ⟨3, ![16384, 20, 1]⟩
abbrev S16384x20x128 : Shape := ⟨3, ![16384, 20, 128]⟩
abbrev S128x256 : Shape := ⟨2, ![128, 256]⟩
abbrev S16384x256 : Shape := ⟨2, ![16384, 256]⟩
abbrev S16384x1x256 : Shape := ⟨3, ![16384, 1, 256]⟩
abbrev S16384x20x256 : Shape := ⟨3, ![16384, 20, 256]⟩
abbrev S1x1x256 : Shape := ⟨3, ![1, 1, 256]⟩
abbrev S1x128 : Shape := ⟨2, ![1, 128]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x20, .i32⟩
  | .hbm, ⟨2, _⟩ => ⟨S100000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x1, .f32⟩
  | .hbm, ⟨8, _⟩ => ⟨S1, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x128, .f32⟩
  | .hbm, ⟨18, _⟩ => ⟨S_, .i32⟩
  | .hbm, ⟨19, _⟩ => ⟨S16384x20, .i32⟩
  | .hbm, ⟨20, _⟩ => ⟨S16384x20, .i1⟩
  | .hbm, ⟨21, _⟩ => ⟨S_, .i32⟩
  | .hbm, ⟨22, _⟩ => ⟨S16384x20, .i32⟩
  | .hbm, ⟨23, _⟩ => ⟨S16384x20, .i32⟩
  | .hbm, ⟨24, _⟩ => ⟨S16384x20, .i32⟩
  | .hbm, ⟨25, _⟩ => ⟨S16384x20x1, .i32⟩
  | .hbm, ⟨26, _⟩ => ⟨S16384x20x128, .f32⟩
  | .hbm, ⟨27, _⟩ => ⟨S128x256, .f32⟩
  | .hbm, ⟨28, _⟩ => ⟨S128x256, .f32⟩
  | .hbm, ⟨29, _⟩ => ⟨S16384x256, .f32⟩
  | .hbm, ⟨30, _⟩ => ⟨S16384x1x256, .f32⟩
  | .hbm, ⟨31, _⟩ => ⟨S16384x20x256, .f32⟩
  | .hbm, ⟨32, _⟩ => ⟨S16384x20x256, .f32⟩
  | .hbm, ⟨33, _⟩ => ⟨S16384x20x256, .f32⟩
  | .hbm, ⟨34, _⟩ => ⟨S1x1x256, .f32⟩
  | .hbm, ⟨35, _⟩ => ⟨S16384x20x256, .f32⟩
  | .hbm, ⟨36, _⟩ => ⟨S16384x20x256, .f32⟩
  | .hbm, ⟨37, _⟩ => ⟨S_, .f32⟩
  | .hbm, ⟨38, _⟩ => ⟨S16384x20x256, .f32⟩
  | .hbm, ⟨39, _⟩ => ⟨S16384x20x256, .f32⟩
  | .hbm, ⟨40, _⟩ => ⟨S_, .f32⟩
  | .hbm, ⟨41, _⟩ => ⟨S16384x256, .f32⟩
  | .hbm, ⟨42, _⟩ => ⟨S16384x128, .f32⟩
  | .hbm, ⟨43, _⟩ => ⟨S1x128, .f32⟩
  | .hbm, ⟨44, _⟩ => ⟨S16384x128, .f32⟩
  | .hbm, ⟨45, _⟩ => ⟨S16384x128, .f32⟩
  | .hbm, ⟨46, _⟩ => ⟨S16384x1, .f32⟩
  | .hbm, ⟨47, _⟩ => ⟨S1x1, .f32⟩
  | .hbm, ⟨48, _⟩ => ⟨S16384x1, .f32⟩
  | .hbm, ⟨49, _⟩ => ⟨S16384x1, .f32⟩
  | .hbm, ⟨50, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  slices_S256x256_S128x256_0_0 : S256x256.Slices ![0, 0] S128x256
  slices_S256x256_S128x256_128_0 : S256x256.Slices ![128, 0] S128x256
  bcast_S16384x256_S16384x1x256_0_2 : S16384x256.BroadcastsInDim S16384x1x256 (![0, 2] : Fin 2 → Fin S16384x1x256.rank)
  bcast_S16384x1x256_S16384x20x256_0_1_2 : S16384x1x256.BroadcastsInDim S16384x20x256 (![0, 1, 2] : Fin 3 → Fin S16384x20x256.rank)
  bcast_S256_S1x1x256_2 : S256.BroadcastsInDim S1x1x256 (![2] : Fin 1 → Fin S1x1x256.rank)
  bcast_S1x1x256_S16384x20x256_0_1_2 : S1x1x256.BroadcastsInDim S16384x20x256 (![0, 1, 2] : Fin 3 → Fin S16384x20x256.rank)
  bcast_S_S16384x20x256 : S_.BroadcastsInDim S16384x20x256 (![] : Fin 0 → Fin S16384x20x256.rank)
  reducesTo_S16384x20x256_S16384x256_d1 : S16384x20x256.ReducesTo [1] S16384x256
  h_S_ : 0 < S_.numel
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S100000x128_S16384x1_S16384x128_1_0_n_n_0_1_1128_wf : GatherDims.WF S100000x128 S16384x1 S16384x128 [1] [0] [] [0] [] 1 ![1, 128]
  gather_S100000x128_S16384x20x1_S16384x20x128_2_0_n_n_0_2_1128_wf : GatherDims.WF S100000x128 S16384x20x1 S16384x20x128 [2] [0] [] [0] [] 2 ![1, 128]
  dot_S16384x128_S128x256_S16384x256_1_0_0_1_n_n_wf : DotDims.WF S16384x128 S128x256 S16384x256 [1] [0] [0] [1] [] []
  dot_S16384x20x128_S128x256_S16384x20x256_2_0_01_1_n_n_wf : DotDims.WF S16384x20x128 S128x256 S16384x20x256 [2] [0] [0, 1] [1] [] []
  dot_S16384x256_S256x128_S16384x128_1_0_0_1_n_n_wf : DotDims.WF S16384x256 S256x128 S16384x128 [1] [0] [0] [1] [] []
  dot_S16384x256_S256x1_S16384x1_1_0_0_1_n_n_wf : DotDims.WF S16384x256 S256x1 S16384x1 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S100000x128_S16384x20x1_S16384x20x128_2_0_n_n_0_2_1128 : GatherDims S100000x128 S16384x20x1 S16384x20x128 where
  offsetDims := [2]
  collapsedSliceDims := [0]
  operandBatchingDims := []
  startIndicesBatchingDims := []
  startIndexMap := [0]
  indexVectorDim := 2
  sliceSizes := ![1, 128]
  wf := gather_S100000x128_S16384x20x1_S16384x20x128_2_0_n_n_0_2_1128_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x20x128_S128x256_S16384x20x256_2_0_01_1_n_n : DotDims S16384x20x128 S128x256 S16384x20x256 where
  lhsContracting := [2]
  rhsContracting := [0]
  lhsNonContracting := [0, 1]
  rhsNonContracting := [1]
  lhsBatch := []
  rhsBatch := []
  wf := dot_S16384x20x128_S128x256_S16384x20x256_2_0_01_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.Spec.lean ====
/-
  The function both programs compute, entry by entry, on the extended reals.

  The inputs are a vector of 16384 centre ids, a [16384, 20] matrix of context ids, an embedding table of 100000 rows of
  128 entries, a [256, 256] weight whose upper 128 rows act on the centre embedding and whose lower 128 rows act on a
  context embedding, a bias of 256 entries, and two heads: a [256, 128] weight with a bias row, and a [256, 1] weight
  with one bias.

  An id names a table row as array indexing does: a negative id counts from the end of the table (100000 is added),
  and the result is clamped into [0, 99999]. For batch entry b the centre row is projected once, each of the 20 context
  rows is projected, and the hidden entry (b, h) is the sum over the 20 context slots of
  max (centre projection + context projection + bias, 0), taken from the zero of the float format. The first result is
  the hidden row times the first head plus its bias; the second is the exponential of the hidden row times the second
  head plus its bias.

  No law of arithmetic that fails at an infinity is used anywhere in this certificate: the two programs differ only in
  the order of the two projections under the maximum and in how the sum over the slots is accumulated, and addition on
  the extended reals is commutative and associative.
-/
import Idealize.ShloMosaic.PureOps.Ideal
import Idealize.ShloMosaic.Lib.ValueIdx
import proofs.«119598_j54614804136064_2_alg».proof.Proof.LibGatherRows

noncomputable section

open scoped BigOperators

namespace Cert.Spec

open Idealize.ShloMosaic Idealize.ShloMosaic.ValueIdx

/-- An id as array indexing reads it: a negative one counts from the end of the 100000 rows. -/
def wrapId (v : BitVec 32) : BitVec 32 := Scalar.select (IntOp.cmpi .slt v 0#32) (IntOp.addi v 100000#32) v

/-- The table row an id names: the wrapped id clamped into the table. -/
def rowOf (v : BitVec 32) : Fin 100000 := Cert.LibGatherRows.clampRow 100000 (by decide) (wrapId v)

/-- Row `d` of the weight's upper half, the rows that meet the centre embedding. -/
def upper (d : Fin 128) : Fin 256 := ⟨d.val, by omega⟩

/-- Row `d` of the weight's lower half, the rows that meet a context embedding. -/
def lower (d : Fin 128) : Fin 256 := ⟨128 + d.val, by omega⟩

/-- The zero of the float format, as the extended real its word denotes. -/
def zeroE : EReal := Ideal.ofBits .f32 0x00000000#32

variable (cid : (⟨1, ![16384]⟩ : Shape).Idx → BitVec 32) (xid : (⟨2, ![16384, 20]⟩ : Shape).Idx → BitVec 32)
  (emb : (⟨2, ![100000, 128]⟩ : Shape).Idx → EReal) (Wf : (⟨2, ![256, 256]⟩ : Shape).Idx → EReal)
  (bf : (⟨1, ![256]⟩ : Shape).Idx → EReal) (Wu : (⟨2, ![256, 128]⟩ : Shape).Idx → EReal)
  (bu : (⟨1, ![128]⟩ : Shape).Idx → EReal) (Wv : (⟨2, ![256, 1]⟩ : Shape).Idx → EReal)
  (bv : (⟨1, ![1]⟩ : Shape).Idx → EReal)

/-- Entry `d` of batch entry `b`'s centre embedding. -/
def cen (b : Fin 16384) (d : Fin 128) : EReal := emb (ix2 (rowOf (cid (ix1 b))) d)

/-- Entry `d` of batch entry `b`'s context embedding in slot `k`. -/
def ctx (b : Fin 16384) (k : Fin 20) (d : Fin 128) : EReal := emb (ix2 (rowOf (xid (ix2 b k))) d)

/-- The centre embedding against column `h` of the weight's upper half. -/
def cproj (b : Fin 16384) (h : Fin 256) : EReal := ∑ d : Fin 128, cen cid emb b d * Wf (ix2 (upper d) h)

/-- The context embedding of slot `k` against column `h` of the weight's lower half. -/
def xproj (b : Fin 16384) (k : Fin 20) (h : Fin 256) : EReal := ∑ d : Fin 128, ctx xid emb b k d * Wf (ix2 (lower d) h)

/-- What slot `k` contributes to the hidden entry `(b, h)`. -/
def slotTerm (b : Fin 16384) (k : Fin 20) (h : Fin 256) : EReal :=
  max ((cproj cid emb Wf b h + xproj xid emb Wf b k h) + bf (ix1 h)) zeroE

/-- The hidden entry `(b, h)`: the slots' contributions summed from the zero. -/
def hid (b : Fin 16384) (h : Fin 256) : EReal := zeroE + ∑ k : Fin 20, slotTerm cid xid emb Wf bf b k h

/-- Entry `(b, l)` of the first result. -/
def muAt (b : Fin 16384) (l : Fin 128) : EReal :=
  (∑ h : Fin 256, hid cid xid emb Wf bf b h * Wu (ix2 h l)) + bu (ix1 l)

/-- Entry `b` of the second result. -/
def sigmaAt (b : Fin 16384) : EReal :=
  Ideal.exp ((∑ h : Fin 256, hid cid xid emb Wf bf b h * Wv (ix2 h (0 : Fin 1))) + bv (ix1 (0 : Fin 1)))

/-- The first result as an array. -/
def mu : (⟨2, ![16384, 128]⟩ : Shape).Idx → EReal := fun i => muAt cid xid emb Wf bf Wu bu (i 0) (i 1)

/-- The second result as an array. -/
def sigma : (⟨2, ![16384, 1]⟩ : Shape).Idx → EReal := fun i => sigmaAt cid xid emb Wf bf Wv bv (i 0)

theorem mu_ix2 (b : Fin 16384) (l : Fin 128) :
    mu cid xid emb Wf bf Wu bu (ix2 b l) = muAt cid xid emb Wf bf Wu bu b l := rfl

theorem sigma_ix2 (b : Fin 16384) (u : Fin 1) :
    sigma cid xid emb Wf bf Wv bv (ix2 b u) = sigmaAt cid xid emb Wf bf Wv bv b := rfl

end Cert.Spec

end
-- ==== Proof.Found.lean ====
/-
  What the kernel's windows find in their arrays when the region is entered.

  Before the region the program computes, on the host: the table in the narrower float format (the same extended reals),
  the centre rows gathered at the wrapped centre ids, the context rows gathered at the wrapped ids of the TRANSPOSED id
  matrix — so that the context array is laid out slot first, [20, 16384, 128] —, the upper and the lower half of the
  weight, and the two head weights, each in the narrower format. Entry by entry these are the specification's centre
  and context embeddings and plain entries of the argument arrays.
-/
import proofs.«119598_j54614804136064_2_alg».proof.Proof.Gen.KernelIdeal.Value
import proofs.«119598_j54614804136064_2_alg».proof.Proof.Spec
import Idealize.ShloMosaic.Lib.StableHlo.Run
import Idealize.ShloMosaic.Lib.ValueLayout

set_option maxRecDepth 16384

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx
open Cert.Spec Cert.LibGatherRows

/-! ## The host operations read at an index, over any arrays -/

/-- The centre ids wrapped: a negative id has 100000 added. -/
abbrev wrapped1 (X0 : IVec S16384 32) : IVec S16384 32 :=
  select (cmpi .slt X0 (broadcastInDim S16384 ![] Facts₀.bcast_S_S16384 (constantI S_ 32 0#32)))
    (addi X0 (broadcastInDim S16384 ![] Facts₀.bcast_S_S16384 (constantI S_ 32 100000#32))) X0

/-- The transposed context ids wrapped. -/
abbrev wrapped2 (Y : IVec S20x16384 32) : IVec S20x16384 32 :=
  select (cmpi .slt Y (broadcastInDim S20x16384 ![] Facts₀.bcast_S_S20x16384 (constantI S_ 32 0#32)))
    (addi Y (broadcastInDim S20x16384 ![] Facts₀.bcast_S_S20x16384 (constantI S_ 32 100000#32))) Y

theorem wrapped1_at (X0 : IVec S16384 32) (b : Fin 16384) : wrapped1 X0 (ix1 b) = wrapId (X0 (ix1 b)) := by
  have z : ∀ v : BitVec 32, broadcastInDim S16384 ![] Facts₀.bcast_S_S16384 (constantI S_ 32 v) (ix1 b) = v := fun v =>
    broadcastInDim_apply _ Facts₀.bcast_S_S16384 (constantI S_ 32 v) (ix1 b) ix0 (fun a => a.elim0)
  show Scalar.select (IntOp.cmpi .slt (X0 (ix1 b))
        (broadcastInDim S16384 ![] Facts₀.bcast_S_S16384 (constantI S_ 32 0#32) (ix1 b)))
      (IntOp.addi (X0 (ix1 b)) (broadcastInDim S16384 ![] Facts₀.bcast_S_S16384 (constantI S_ 32 100000#32) (ix1 b)))
      (X0 (ix1 b)) = _
  rw [z, z]
  rfl

theorem wrapped2_at (Y : IVec S20x16384 32) (k : Fin 20) (b : Fin 16384) :
    wrapped2 Y (ix2 k b) = wrapId (Y (ix2 k b)) := by
  have z : ∀ v : BitVec 32, broadcastInDim S20x16384 ![] Facts₀.bcast_S_S20x16384 (constantI S_ 32 v) (ix2 k b) = v :=
    fun v => broadcastInDim_apply _ Facts₀.bcast_S_S20x16384 (constantI S_ 32 v) (ix2 k b) ix0 (fun a => a.elim0)
  show Scalar.select (IntOp.cmpi .slt (Y (ix2 k b))
        (broadcastInDim S20x16384 ![] Facts₀.bcast_S_S20x16384 (constantI S_ 32 0#32) (ix2 k b)))
      (IntOp.addi (Y (ix2 k b))
        (broadcastInDim S20x16384 ![] Facts₀.bcast_S_S20x16384 (constantI S_ 32 100000#32) (ix2 k b)))
      (Y (ix2 k b)) = _
  rw [z, z]
  rfl

/-- The gathered centre rows, from the table in the narrower format, are the specification's centre embeddings. -/
theorem centre_at (X0 : IVec S16384 32) (X2 : FVec Ideal S100000x128 .f32) (b : Fin 16384) (d : Fin 128) :
    Host.gather gather_S100000x128_S16384x1_S16384x128_1_0_n_n_0_1_1128 (truncf .bf16 X2 Facts₀.bitsLt_bf16_f32)
        (broadcastInDim S16384x1 ![0] Facts₀.bcast_S16384_S16384x1_0 (wrapped1 X0)) (ix2 b d)
      = cen X0 X2 b d := by
  rw [show gather_S100000x128_S16384x1_S16384x128_1_0_n_n_0_1_1128 = rowDims2 100000 128 16384 Facts₀.gather_S100000x128_S16384x1_S16384x128_1_0_n_n_0_1_1128_wf from rfl, gather_rows2_apply (by decide),
    broadcastInDim_apply _ Facts₀.bcast_S16384_S16384x1_0 (wrapped1 X0) (ix2 b (0 : Fin 1)) (ix1 b)
      (fun a => match a with
        | ⟨0, _⟩ => by show b.val = if (16384 : ℕ) = 1 then 0 else b.val; rw [if_neg (by decide)]),
    wrapped1_at]
  rfl

/-- The gathered context rows, slot first, are the specification's context embeddings: the ids were transposed. -/
theorem context_at (X1 : IVec S16384x20 32) (X2 : FVec Ideal S100000x128 .f32) (k : Fin 20) (b : Fin 16384)
    (d : Fin 128) :
    Host.gather gather_S100000x128_S20x16384x1_S20x16384x128_2_0_n_n_0_2_1128 (truncf .bf16 X2 Facts₀.bitsLt_bf16_f32)
        (broadcastInDim S20x16384x1 ![0, 1] Facts₀.bcast_S20x16384_S20x16384x1_0_1
          (wrapped2 (transpose S20x16384 [1, 0] X1 Facts₀.transposes_S16384x20_S20x16384_1_0))) (ix3 k b d)
      = ctx X1 X2 b k d := by
  rw [show gather_S100000x128_S20x16384x1_S20x16384x128_2_0_n_n_0_2_1128 = rowDims3 100000 128 20 16384 Facts₀.gather_S100000x128_S20x16384x1_S20x16384x128_2_0_n_n_0_2_1128_wf from rfl, gather_rows3_apply (by decide),
    broadcastInDim_apply _ Facts₀.bcast_S20x16384_S20x16384x1_0_1 _ (ix3 k b (0 : Fin 1)) (ix2 k b)
      (fun a => match a with
        | ⟨0, _⟩ => by show k.val = if (20 : ℕ) = 1 then 0 else k.val; rw [if_neg (by decide)]
        | ⟨1, _⟩ => by show b.val = if (16384 : ℕ) = 1 then 0 else b.val; rw [if_neg (by decide)]),
    wrapped2_at, transpose_ix2_apply]
  rfl

/-- The weight's upper half in the narrower format, entry `(d, q)`. -/
theorem upper_at (X3 : FVec Ideal S256x256 .f32) (d : Fin 128) (q : Fin 256) :
    truncf .bf16 (extractStridedSlice S128x256 ![0, 0] X3 Facts₀.slices_S256x256_S128x256_0_0) Facts₀.bitsLt_bf16_f32
      (ix2 d q) = X3 (ix2 (upper d) q) :=
  extractStridedSlice_apply ![0, 0] X3 Facts₀.slices_S256x256_S128x256_0_0 (ix2 d q) (ix2 (upper d) q)
    (fun a => match a with
      | ⟨0, _⟩ => by show d.val = 0 + d.val; omega
      | ⟨1, _⟩ => by show q.val = 0 + q.val; omega)

/-- The weight's lower half in the narrower format, entry `(d, q)`. -/
theorem lower_at (X3 : FVec Ideal S256x256 .f32) (d : Fin 128) (q : Fin 256) :
    truncf .bf16 (extractStridedSlice S128x256 ![128, 0] X3 Facts₀.slices_S256x256_S128x256_128_0)
      Facts₀.bitsLt_bf16_f32 (ix2 d q) = X3 (ix2 (lower d) q) :=
  extractStridedSlice_apply ![128, 0] X3 Facts₀.slices_S256x256_S128x256_128_0 (ix2 d q) (ix2 (lower d) q)
    (fun a => match a with
      | ⟨0, _⟩ => by show 128 + d.val = 128 + d.val; rfl
      | ⟨1, _⟩ => by show q.val = 0 + q.val; omega)

/-! ## The arrays as the region finds them -/

variable (m : (ℓ : Loc nD τ sig) → Buf (Elt Ideal) ℓ)

/-- The host's term for the centre array. -/
abbrev centreTerm (c : Dev nD) : S16384x128.Idx → EReal :=
  Host.gather gather_S100000x128_S16384x1_S16384x128_1_0_n_n_0_1_1128 (truncf (F := Ideal) .bf16 (m ((c : Thread nD τ).loc main_arg2)) Facts₀.bitsLt_bf16_f32)
    (broadcastInDim S16384x1 ![0] Facts₀.bcast_S16384_S16384x1_0 (wrapped1 (m ((c : Thread nD τ).loc main_arg0))))

/-- The host's term for the context array. -/
abbrev contextTerm (c : Dev nD) : S20x16384x128.Idx → EReal :=
  Host.gather gather_S100000x128_S20x16384x1_S20x16384x128_2_0_n_n_0_2_1128 (truncf (F := Ideal) .bf16 (m ((c : Thread nD τ).loc main_arg2)) Facts₀.bitsLt_bf16_f32)
    (broadcastInDim S20x16384x1 ![0, 1] Facts₀.bcast_S20x16384_S20x16384x1_0_1
      (wrapped2 (transpose S20x16384 [1, 0] (m ((c : Thread nD τ).loc main_arg1))
        Facts₀.transposes_S16384x20_S20x16384_1_0)))

/-- The host's term for the weight's upper half. -/
abbrev upperTerm (c : Dev nD) : S128x256.Idx → EReal :=
  truncf (F := Ideal) .bf16 (extractStridedSlice S128x256 ![0, 0] (m ((c : Thread nD τ).loc main_arg3))
    Facts₀.slices_S256x256_S128x256_0_0) Facts₀.bitsLt_bf16_f32

/-- The host's term for the weight's lower half. -/
abbrev lowerTerm (c : Dev nD) : S128x256.Idx → EReal :=
  truncf (F := Ideal) .bf16 (extractStridedSlice S128x256 ![128, 0] (m ((c : Thread nD τ).loc main_arg3))
    Facts₀.slices_S256x256_S128x256_128_0) Facts₀.bitsLt_bf16_f32

/-- The centre array is that term. -/
theorem V_centre (c : Dev nD) : (V m c main_v7 : S16384x128.Idx → EReal) = centreTerm m c := by
  have key : ∀ R : S16384x128.Idx → EReal, centreTerm m c = R → (V m c main_v7 : S16384x128.Idx → EReal) = R := by
    intro R hR
    dsimp only [V, hostOps0]
    after_results
    exact hR
  exact key _ rfl

/-- The context array is that term. -/
theorem V_context (c : Dev nD) : (V m c main_v15 : S20x16384x128.Idx → EReal) = contextTerm m c := by
  have key : ∀ R : S20x16384x128.Idx → EReal, contextTerm m c = R →
      (V m c main_v15 : S20x16384x128.Idx → EReal) = R := by
    intro R hR
    dsimp only [V, hostOps0]
    after_results
    exact hR
  exact key _ rfl

/-- The weight's upper half is that term. -/
theorem V_upper (c : Dev nD) : (V m c main_v17 : S128x256.Idx → EReal) = upperTerm m c := by
  have key : ∀ R : S128x256.Idx → EReal, upperTerm m c = R → (V m c main_v17 : S128x256.Idx → EReal) = R := by
    intro R hR
    dsimp only [V, hostOps0]
    after_results
    exact hR
  exact key _ rfl

/-- The weight's lower half is that term. -/
theorem V_lower (c : Dev nD) : (V m c main_v19 : S128x256.Idx → EReal) = lowerTerm m c := by
  have key : ∀ R : S128x256.Idx → EReal, lowerTerm m c = R → (V m c main_v19 : S128x256.Idx → EReal) = R := by
    intro R hR
    dsimp only [V, hostOps0]
    after_results
    exact hR
  exact key _ rfl

/-- The first head's weight: the argument's extended reals. -/
theorem V_head1 (c : Dev nD) :
    (V m c main_v20 : S256x128.Idx → EReal) = m ((c : Thread nD τ).loc main_arg5) := by
  have key : ∀ R : S256x128.Idx → EReal, (m ((c : Thread nD τ).loc main_arg5) : S256x128.Idx → EReal) = R →
      (V m c main_v20 : S256x128.Idx → EReal) = R := by
    intro R hR
    dsimp only [V, hostOps0]
    after_results
    exact hR
  exact key _ rfl

/-- The second head's weight: the argument's extended reals. -/
theorem V_head2 (c : Dev nD) :
    (V m c main_v21 : S256x1.Idx → EReal) = m ((c : Thread nD τ).loc main_arg7) := by
  have key : ∀ R : S256x1.Idx → EReal, (m ((c : Thread nD τ).loc main_arg7) : S256x1.Idx → EReal) = R →
      (V m c main_v21 : S256x1.Idx → EReal) = R := by
    intro R hR
    dsimp only [V, hostOps0]
    after_results
    exact hR
  exact key _ rfl

/-! ## The found arrays at an index -/

theorem centre_found (c : Dev nD) (b : Fin 16384) (d : Fin 128) :
    (V m c main_v7 : S16384x128.Idx → EReal) (ix2 b d)
      = cen (m ((c : Thread nD τ).loc main_arg0)) (m ((c : Thread nD τ).loc main_arg2)) b d := by
  rw [V_centre]
  exact centre_at _ _ b d

theorem context_found (c : Dev nD) (k : Fin 20) (b : Fin 16384) (d : Fin 128) :
    (V m c main_v15 : S20x16384x128.Idx → EReal) (ix3 k b d)
      = ctx (m ((c : Thread nD τ).loc main_arg1)) (m ((c : Thread nD τ).loc main_arg2)) b k d := by
  rw [V_context]
  exact context_at _ _ k b d

theorem upper_found (c : Dev nD) (d : Fin 128) (q : Fin 256) :
    (V m c main_v17 : S128x256.Idx → EReal) (ix2 d q) = m ((c : Thread nD τ).loc main_arg3) (ix2 (upper d) q) := by
  rw [V_upper]
  exact upper_at _ d q

theorem lower_found (c : Dev nD) (d : Fin 128) (q : Fin 256) :
    (V m c main_v19 : S128x256.Idx → EReal) (ix2 d q) = m ((c : Thread nD τ).loc main_arg3) (ix2 (lower d) q) := by
  rw [V_lower]
  exact lower_at _ d q

end Cert.KernelIdeal.Found

end
-- ==== Proof.BodyPieces.lean ====
/-
  What one grid point of the kernel leaves in its two output blocks, as pure terms of the nine input blocks.

  The body runs a counted loop of 20 trips that carries a [2048, 256] accumulator in registers. Trip k loads slab k of
  the context block (a [1, 2048, 128] slice of the [20, 2048, 128] block) and adds to the accumulator the rectified sum
  of that slab's projection, the centre projection and the bias. After the loop the body stores two values computed from
  the accumulator: the first head (a product with a [256, 128] matrix plus a bias row) and the exponential of the second
  head (a product with a [256, 1] column plus a bias).

  This module states the accumulator before trip n as a recursion on n over plain loads of the blocks (`carried`),
  shows that the recursion the frame run records for the loop is this one, and reads the two stored blocks as the
  body's terms of `carried` at the trip count. It holds at every float instance.
-/
import proofs.«119598_j54614804136064_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem Idealize.ShloMosaic.Tactic

variable {F : FTy → Type} [FloatOps F]

/-- The zero offsets of a whole-block access at rank two, in the two spellings the body and the library use. -/
theorem zeroOff2 : (![0, 0] : Fin 2 → ℕ) = fun _ => 0 := by
  funext a; match a with
  | ⟨0, _⟩ => rfl
  | ⟨1, _⟩ => rfl

/-- The same at rank one. -/
theorem zeroOff1 : (![0] : Fin 1 → ℕ) = fun _ => 0 := by
  funext a; match a with
  | ⟨0, _⟩ => rfl

/-- Slab `k` of the context block: what trip `k` of the loop loads, a [1, 2048, 128] slice at leading offset `k`. -/
abbrev slab (x1 : Vec F S20x2048x128 .bf16) (k : Fin k0_t1_loop.trips) : Vec F S1x2048x128 .bf16 :=
  View.ld x1 (Rect.unit (s := S20x2048x128) (k0_off1 k) S1x2048x128.size (k0_off1_inb k))

/-- The accumulator before trip `n`: the zero block before trip 0, and after trip `n` the body's one-trip term of the
    accumulator before it and slab `n`. Past the last trip it no longer changes. -/
def carried (x0 : Vec F S2048x128 .bf16) (x1 : Vec F S20x2048x128 .bf16) (x2 : Vec F S128x256 .bf16) (x3 : Vec F S128x256 .bf16) (x4 : Vec F S256 .f32) : ℕ → FVec F S2048x256 .f32
  | 0 => k0_pay1
  | n + 1 =>
    if h : n < k0_t1_loop.trips then
      k0_pay2 x2 x3 x4 x0 (carried x0 x1 x2 x3 x4 n) (slab x1 ⟨n, h⟩)
    else carried x0 x1 x2 x3 x4 n

theorem carried_zero (x0 : Vec F S2048x128 .bf16) (x1 : Vec F S20x2048x128 .bf16) (x2 : Vec F S128x256 .bf16) (x3 : Vec F S128x256 .bf16) (x4 : Vec F S256 .f32) : carried x0 x1 x2 x3 x4 0 = k0_pay1 := rfl

theorem carried_succ (x0 : Vec F S2048x128 .bf16) (x1 : Vec F S20x2048x128 .bf16) (x2 : Vec F S128x256 .bf16) (x3 : Vec F S128x256 .bf16) (x4 : Vec F S256 .f32) (n : ℕ) (h : n < k0_t1_loop.trips) :
    carried x0 x1 x2 x3 x4 (n + 1) = k0_pay2 x2 x3 x4 x0 (carried x0 x1 x2 x3 x4 n) (slab x1 ⟨n, h⟩) := by
  rw [carried]; exact dif_pos h

/-- What one trip of the loop yields, as the frame run found it: the body's one-trip term of the accumulator and of
    the slab of the context buffer's contents the trip loads. -/
theorem trip_eq (𝒱 : Variants) (c : Dev nD) (bd : Option 𝒱.V) (i : grid0.Coords) (arg1 : Memref sig .tc .vmem S2048x128 .bf16) (harg1 : arg1.IsWhole) (arg2 : Memref sig .tc .vmem S20x2048x128 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S256 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S256x1 .bf16) (harg8 : arg8.IsWhole) (arg9 : Memref sig .tc .vmem S1 .f32) (harg9 : arg9.IsWhole) (arg10 : Memref sig .tc .vmem S2048x128 .f32) (harg10 : arg10.IsWhole) (arg11 : Memref sig .tc .vmem S2048x1 .f32) (harg11 : arg11.IsWhole)
    (v0 : Vec F S128x256 .bf16) (v2 : Vec F S128x256 .bf16) (v4 : Vec F S256 .f32) (v6 : Vec F S2048x128 .bf16)
    (X_arg2 : BufTy.Contents (Elt F) arg2.view.ty) (k : Fin k0_t1_loop.trips) (acc : FVec F S2048x256 .f32) :
    tripR_k0_t1 (F := F) 𝒱 c bd i arg1 harg1 arg2 harg2 arg3 harg3 arg4 harg4 arg5 harg5 arg6 harg6 arg7 harg7 arg8 harg8 arg9 harg9 arg10 harg10 arg11 harg11 v0 v2 v4 v6 X_arg2 k acc
      = k0_pay2 v0 v2 v4 v6 acc (slab (arg2.view.read (Elt F) X_arg2) k) := by
  unfold tripR_k0_t1 trip_k0_t1
  rfl

/-- The accumulator the frame run records before trip `n`, when the context buffer holds the block `x1`, is `carried`. -/
theorem st_eq_carried (𝒱 : Variants) (c : Dev nD) (bd : Option 𝒱.V) (i : grid0.Coords) (arg1 : Memref sig .tc .vmem S2048x128 .bf16) (harg1 : arg1.IsWhole) (arg2 : Memref sig .tc .vmem S20x2048x128 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S256 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S256x1 .bf16) (harg8 : arg8.IsWhole) (arg9 : Memref sig .tc .vmem S1 .f32) (harg9 : arg9.IsWhole) (arg10 : Memref sig .tc .vmem S2048x128 .f32) (harg10 : arg10.IsWhole) (arg11 : Memref sig .tc .vmem S2048x1 .f32) (harg11 : arg11.IsWhole) (x0 : Vec F S2048x128 .bf16) (x1 : Vec F S20x2048x128 .bf16) (x2 : Vec F S128x256 .bf16) (x3 : Vec F S128x256 .bf16) (x4 : Vec F S256 .f32) (n : ℕ) :
    st_k0_t1 (F := F) 𝒱 c bd i arg1 harg1 arg2 harg2 arg3 harg3 arg4 harg4 arg5 harg5 arg6 harg6 arg7 harg7 arg8 harg8 arg9 harg9 arg10 harg10 arg11 harg11 x2 x3 x4 x0 (harg2.unread x1) k0_pay1 n = carried x0 x1 x2 x3 x4 n := by
  induction n with
  | zero => rfl
  | succ n ih =>
    rw [st_k0_t1.eq_2]; unfold st_k0_t1Step
    by_cases h : n < k0_t1_loop.trips
    · rw [dif_pos h, carried_succ x0 x1 x2 x3 x4 n h, trip_eq, ih, harg2.read_unread]
    · rw [dif_neg h, ih, carried, dif_neg h]

/-- What a grid point leaves in the first output's block: the first head of the accumulator after the last trip. -/
theorem out9_eq (c : Dev nD) (i : grid0.Coords) (arg1 : Memref sig .tc .vmem S2048x128 .bf16) (harg1 : arg1.IsWhole) (arg2 : Memref sig .tc .vmem S20x2048x128 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S256 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S256x1 .bf16) (harg8 : arg8.IsWhole) (arg9 : Memref sig .tc .vmem S1 .f32) (harg9 : arg9.IsWhole) (arg10 : Memref sig .tc .vmem S2048x128 .f32) (harg10 : arg10.IsWhole) (arg11 : Memref sig .tc .vmem S2048x1 .f32) (harg11 : arg11.IsWhole)
    (x0 : Vec F S2048x128 .bf16) (x1 : Vec F S20x2048x128 .bf16) (x2 : Vec F S128x256 .bf16) (x3 : Vec F S128x256 .bf16) (x4 : Vec F S256 .f32) (x5 : Vec F S256x128 .bf16) (x6 : Vec F S128 .f32) (x7 : Vec F S256x1 .bf16) (x8 : Vec F S1 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = k0_pay4 (carried x0 x1 x2 x3 x4 k0_t1_loop.trips) x5 x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  rw [View.canon_unit_zero zeroOff2]
  simp only [View.readAt_eq_ld, harg1.read_unread, harg3.read_unread, harg4.read_unread, harg5.read_unread,
    harg6.read_unread, harg7.read_unread, View.ld_unit_zero (S := S2048x128) zeroOff2,
    View.ld_unit_zero (S := S128x256) zeroOff2, View.ld_unit_zero (S := S256x128) zeroOff2,
    View.ld_unit_zero (S := S256) zeroOff1, View.ld_unit_zero (S := S128) zeroOff1]
  rw [st_eq_carried]

/-- What it leaves in the second output's block: the exponential of the second head of that accumulator. -/
theorem out10_eq (c : Dev nD) (i : grid0.Coords) (arg1 : Memref sig .tc .vmem S2048x128 .bf16) (harg1 : arg1.IsWhole) (arg2 : Memref sig .tc .vmem S20x2048x128 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S256 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S256x1 .bf16) (harg8 : arg8.IsWhole) (arg9 : Memref sig .tc .vmem S1 .f32) (harg9 : arg9.IsWhole) (arg10 : Memref sig .tc .vmem S2048x128 .f32) (harg10 : arg10.IsWhole) (arg11 : Memref sig .tc .vmem S2048x1 .f32) (harg11 : arg11.IsWhole)
    (x0 : Vec F S2048x128 .bf16) (x1 : Vec F S20x2048x128 .bf16) (x2 : Vec F S128x256 .bf16) (x3 : Vec F S128x256 .bf16) (x4 : Vec F S256 .f32) (x5 : Vec F S256x128 .bf16) (x6 : Vec F S128 .f32) (x7 : Vec F S256x1 .bf16) (x8 : Vec F S1 .f32) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 = k0_pay5 (carried x0 x1 x2 x3 x4 k0_t1_loop.trips) x7 x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  rw [View.canon_unit_zero zeroOff2]
  simp only [View.readAt_eq_ld, harg1.read_unread, harg3.read_unread, harg4.read_unread, harg5.read_unread,
    harg8.read_unread, harg9.read_unread, View.ld_unit_zero (S := S2048x128) zeroOff2,
    View.ld_unit_zero (S := S128x256) zeroOff2, View.ld_unit_zero (S := S256x1) zeroOff2,
    View.ld_unit_zero (S := S256) zeroOff1, View.ld_unit_zero (S := S1) zeroOff1]
  rw [st_eq_carried]

end Cert.KernelIdeal.Body

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.BodyValue.lean ====
/-
  What one grid point of the kernel computes, entry by entry, on the extended reals.

  A grid point sees 2048 batch entries: their centre rows `x0` [2048, 128], their context rows `x1` [20, 2048, 128] with
  the slot as the leading axis, the two halves `x2`, `x3` [128, 256] of the weight, its bias `x4`, and the two heads
  `x5`, `x6` and `x7`, `x8`. For local row p the accumulator after the 20 trips is the zero plus the sum over the slots
  of max (context projection + centre projection + bias, 0): trip k adds slot k's term to what the earlier trips left,
  so by induction on the trips the accumulator before trip n is the zero plus the first n terms. The two stored blocks
  are the heads of that accumulator.

  The last part turns these block-level sums into the specification's entries for the batch entry the local row is,
  given what the blocks hold of the arrays; the only arithmetic is the commutativity of the sum of the two projections.
-/
import proofs.«119598_j54614804136064_2_alg».proof.Proof.BodyPieces
import proofs.«119598_j54614804136064_2_alg».proof.Proof.LibPlainMatmul
import proofs.«119598_j54614804136064_2_alg».proof.Proof.Spec
import Idealize.ShloMosaic.Lib.ValueLayout
import Idealize.ShloMosaic.PureOps.Ideal.Laws

set_option maxRecDepth 16384

noncomputable section

open scoped BigOperators

namespace Cert.KernelIdeal.BodyValue

open Cert.KernelIdeal Cert.KernelIdeal.Gen Cert.KernelIdeal.Body Idealize.ShloMosaic Idealize.ShloMosaic.ValueIdx
open Cert.Spec (zeroE)

/-- The loop runs 20 trips. -/
theorem trips_eq : k0_t1_loop.trips = 20 := by decide

/-! ## The block-level quantities -/

section Block
variable (x0 : Vec Ideal S2048x128 .bf16) (x1 : Vec Ideal S20x2048x128 .bf16) (x2 : Vec Ideal S128x256 .bf16) (x3 : Vec Ideal S128x256 .bf16) (x4 : Vec Ideal S256 .f32)
  (x5 : Vec Ideal S256x128 .bf16) (x6 : Vec Ideal S128 .f32) (x7 : Vec Ideal S256x1 .bf16) (x8 : Vec Ideal S1 .f32)

/-- Local row `p`'s centre row against column `q` of the weight's upper half. -/
def bcen (p : Fin 2048) (q : Fin 256) : EReal := ∑ d : Fin 128, x0 (ix2 p d) * x2 (ix2 d q)

/-- Local row `p`'s context row in slot `k` against column `q` of the weight's lower half. -/
def bctx (k : Fin 20) (p : Fin 2048) (q : Fin 256) : EReal := ∑ d : Fin 128, x1 (ix3 k p d) * x3 (ix2 d q)

/-- What trip `k` adds to the accumulator at `(p, q)`. -/
def bslot (k : Fin 20) (p : Fin 2048) (q : Fin 256) : EReal :=
  max ((bctx x1 x3 k p q + bcen x0 x2 p q) + x4 (ix1 q)) zeroE

/-- The same for a natural number: nothing past the last slot. -/
def bslotN (k : ℕ) (p : Fin 2048) (q : Fin 256) : EReal :=
  if h : k < 20 then bslot x0 x1 x2 x3 x4 ⟨k, h⟩ p q else 0

/-- The accumulator after the last trip at `(p, q)`. -/
def bhid (p : Fin 2048) (q : Fin 256) : EReal := zeroE + ∑ k : Fin 20, bslot x0 x1 x2 x3 x4 k p q

/-- The first stored block at `(p, l)`. -/
def bmu (p : Fin 2048) (l : Fin 128) : EReal :=
  (∑ h : Fin 256, bhid x0 x1 x2 x3 x4 p h * x5 (ix2 h l)) + x6 (ix1 l)

/-- The second stored block at `p`. -/
def bsigma (p : Fin 2048) : EReal :=
  Ideal.exp ((∑ h : Fin 256, bhid x0 x1 x2 x3 x4 p h * x7 (ix2 h (0 : Fin 1))) + x8 (ix1 (0 : Fin 1)))

/-! ## The body's terms at an index -/

/-- Slab `k` of the context block at `(0, p, d)` is the block at `(k, p, d)`. -/
theorem slab_at (k : Fin k0_t1_loop.trips) (hk : k.val < 20) (p : Fin 2048) (d : Fin 128) :
    slab x1 k (ix3 (0 : Fin 1) p d) = x1 (ix3 (⟨k.val, hk⟩ : Fin 20) p d) := by
  show x1 _ = x1 _
  congr 1
  funext a
  refine Fin.ext ?_
  rw [LoadRect.idx_apply]
  simp only [Rect.off_unit, Rect.stride_unit, k0_off1_eq]
  match a with
  | ⟨0, _⟩ => show k.val + 1 * 0 = k.val; omega
  | ⟨1, _⟩ => show 0 + 1 * p.val = p.val; omega
  | ⟨2, _⟩ => show 0 + 1 * d.val = d.val; omega

/-- One trip at `(p, q)`: the accumulator plus the rectified sum of the loaded slab's projection, the centre
    projection and the bias. -/
theorem pay2_at (acc : FVec Ideal S2048x256 .f32) (v31 : Vec Ideal S1x2048x128 .bf16) (p : Fin 2048) (q : Fin 256) :
    k0_pay2 x2 x3 x4 x0 acc v31 (ix2 p q)
      = acc (ix2 p q) + max (((∑ d : Fin 128, v31 (ix3 (0 : Fin 1) p d) * x3 (ix2 d q)) + bcen x0 x2 p q)
          + x4 (ix1 q)) zeroE := by
  have hA : matmul (F := Ideal) (φ₁ := .bf16) (φ₂ := .bf16) dot_S2048x128_S128x256_S2048x256_1_0_0_1_n_n none (shapeCast S2048x128 v31 Facts₀.shapeCasts_S1x2048x128_S2048x128 : FVec Ideal S2048x128 .bf16)
      (x3 : FVec Ideal S128x256 .bf16) (constant S2048x256 .f32 0x00000000#32) (ix2 p q) = ∑ d : Fin 128, v31 (ix3 (0 : Fin 1) p d) * x3 (ix2 d q) :=
    (Cert.LibPlainMatmul.matmul_plain_zero_apply (φ₁ := .bf16) (φ₂ := .bf16) dot_S2048x128_S128x256_S2048x256_1_0_0_1_n_n rfl none
      (shapeCast S2048x128 v31 Facts₀.shapeCasts_S1x2048x128_S2048x128 : FVec Ideal S2048x128 .bf16)
      (x3 : FVec Ideal S128x256 .bf16) p q).trans
      (Finset.sum_congr rfl fun d _ =>
        congrArg (· * x3 (ix2 d q)) (shapeCast_1ab_ab_apply v31 _ p d))
  have hB : matmul (F := Ideal) (φ₁ := .bf16) (φ₂ := .bf16) dot_S2048x128_S128x256_S2048x256_1_0_0_1_n_n none (x0 : FVec Ideal S2048x128 .bf16) (x2 : FVec Ideal S128x256 .bf16)
      (constant S2048x256 .f32 0x00000000#32) (ix2 p q) = bcen x0 x2 p q :=
    by
      unfold bcen
      exact Cert.LibPlainMatmul.matmul_plain_zero_apply (φ₁ := .bf16) (φ₂ := .bf16) dot_S2048x128_S128x256_S2048x256_1_0_0_1_n_n rfl none (x0 : FVec Ideal S2048x128 .bf16)
        (x2 : FVec Ideal S128x256 .bf16) p q
  have hC : broadcastTo S2048x256 (shapeCast S1x256 x4 Facts₀.shapeCasts_S256_S1x256)
      Facts₀.broadcasts_S1x256_S2048x256 (ix2 p q) = x4 (ix1 q) :=
    (broadcastTo_1b_ab_apply _ _ p q).trans (shapeCast_a_1a_apply x4 _ _ q)
  unfold k0_pay2
  simp only [addf_apply, maximumf_apply, broadcast_apply, shapeCast_self]
  rw [hA, hB, hC]
  rfl

/-- The accumulator before trip `n` at `(p, q)`: the zero plus the first `n` slots' terms. -/
theorem carried_at (n : ℕ) (hn : n ≤ 20) (p : Fin 2048) (q : Fin 256) :
    carried x0 x1 x2 x3 x4 n (ix2 p q) = zeroE + ∑ k ∈ Finset.range n, bslotN x0 x1 x2 x3 x4 k p q := by
  induction n with
  | zero =>
    rw [Finset.range_zero, Finset.sum_empty, add_zero]
    rfl
  | succ n ih =>
    have hlt : n < 20 := by omega
    have htr : n < k0_t1_loop.trips := by rw [trips_eq]; exact hlt
    rw [carried_succ x0 x1 x2 x3 x4 n htr, pay2_at, ih (by omega), Finset.sum_range_succ, add_assoc]
    refine congrArg (zeroE + ·) (congrArg (_ + ·) ?_)
    unfold bslotN
    rw [dif_pos hlt]
    unfold bslot bctx
    refine congrArg (max · zeroE) (congrArg (· + x4 (ix1 q)) (congrArg (· + _) ?_))
    refine Finset.sum_congr rfl fun d _ => ?_
    rw [slab_at x1 ⟨n, htr⟩ hlt]

/-- The accumulator after the last trip. -/
theorem carried_final (p : Fin 2048) (q : Fin 256) :
    carried x0 x1 x2 x3 x4 k0_t1_loop.trips (ix2 p q) = bhid x0 x1 x2 x3 x4 p q := by
  rw [trips_eq, carried_at x0 x1 x2 x3 x4 20 (le_refl _), Finset.sum_range]
  unfold bhid
  refine congrArg (zeroE + ·) (Finset.sum_congr rfl fun k _ => ?_)
  unfold bslotN
  rw [dif_pos k.isLt]

/-- The first stored block at `(p, l)`. -/
theorem pay4_at (p : Fin 2048) (l : Fin 128) :
    k0_pay4 (carried x0 x1 x2 x3 x4 k0_t1_loop.trips) x5 x6 (ix2 p l) = bmu x0 x1 x2 x3 x4 x5 x6 p l := by
  have hA : matmul (F := Ideal) (φ₁ := .bf16) (φ₂ := .bf16) dot_S2048x256_S256x128_S2048x128_1_0_0_1_n_n none
      (truncf .bf16 (carried x0 x1 x2 x3 x4 k0_t1_loop.trips) Facts₀.bitsLt_bf16_f32)
      (x5 : FVec Ideal S256x128 .bf16)
      (constant S2048x128 .f32 0x00000000#32) (ix2 p l) = ∑ h : Fin 256, bhid x0 x1 x2 x3 x4 p h * x5 (ix2 h l) :=
    (Cert.LibPlainMatmul.matmul_plain_zero_apply (φ₁ := .bf16) (φ₂ := .bf16) dot_S2048x256_S256x128_S2048x128_1_0_0_1_n_n rfl none
      (truncf .bf16 (carried x0 x1 x2 x3 x4 k0_t1_loop.trips) Facts₀.bitsLt_bf16_f32)
      (x5 : FVec Ideal S256x128 .bf16) p l).trans
      (Finset.sum_congr rfl fun h _ =>
        congrArg (· * x5 (ix2 h l)) (carried_final x0 x1 x2 x3 x4 p h))
  have hC : broadcastTo S2048x128 (shapeCast S1x128 x6 Facts₀.shapeCasts_S128_S1x128)
      Facts₀.broadcasts_S1x128_S2048x128 (ix2 p l) = x6 (ix1 l) :=
    (broadcastTo_1b_ab_apply _ _ p l).trans (shapeCast_a_1a_apply x6 _ _ l)
  unfold k0_pay4 k0_pay3
  simp only [addf_apply, shapeCast_self]
  rw [hA, hC]
  rfl

/-- The second stored block at `(p, 0)`. -/
theorem pay5_at (p : Fin 2048) :
    k0_pay5 (carried x0 x1 x2 x3 x4 k0_t1_loop.trips) x7 x8 (ix2 p (0 : Fin 1)) = bsigma x0 x1 x2 x3 x4 x7 x8 p := by
  have hA : matmul (F := Ideal) (φ₁ := .bf16) (φ₂ := .bf16) dot_S2048x256_S256x1_S2048x1_1_0_0_1_n_n none
      (truncf .bf16 (carried x0 x1 x2 x3 x4 k0_t1_loop.trips) Facts₀.bitsLt_bf16_f32)
      (x7 : FVec Ideal S256x1 .bf16)
      (constant S2048x1 .f32 0x00000000#32) (ix2 p (0 : Fin 1))
        = ∑ h : Fin 256, bhid x0 x1 x2 x3 x4 p h * x7 (ix2 h (0 : Fin 1)) :=
    (Cert.LibPlainMatmul.matmul_plain_zero_apply (φ₁ := .bf16) (φ₂ := .bf16) dot_S2048x256_S256x1_S2048x1_1_0_0_1_n_n rfl none
      (truncf .bf16 (carried x0 x1 x2 x3 x4 k0_t1_loop.trips) Facts₀.bitsLt_bf16_f32)
      (x7 : FVec Ideal S256x1 .bf16) p (0 : Fin 1)).trans
      (Finset.sum_congr rfl fun h _ =>
        congrArg (· * x7 (ix2 h (0 : Fin 1))) (carried_final x0 x1 x2 x3 x4 p h))
  have hC : broadcastTo S2048x1 (shapeCast S1x1 x8 Facts₀.shapeCasts_S1_S1x1)
      Facts₀.broadcasts_S1x1_S2048x1 (ix2 p (0 : Fin 1)) = x8 (ix1 (0 : Fin 1)) :=
    (broadcastTo_1b_ab_apply _ _ p (0 : Fin 1)).trans
      (shapeCast_a_1a_apply x8 _ _ (0 : Fin 1))
  unfold k0_pay5 k0_pay3
  show FloatOps.exp _ = _
  rw [Ideal.exp_def]
  unfold bsigma
  refine congrArg Ideal.exp ?_
  simp only [addf_apply, shapeCast_self]
  rw [hA, hC]

end Block

/-! ## From the block to the specification

When local row `p` of the blocks is batch entry `r` of the arrays — its centre row and its 20 context rows are that
entry's embeddings, and the weight blocks are the weight's halves, the bias and the heads — the block-level sums are the
specification's entries at `r`. The kernel adds the context projection to the centre projection, the specification the
other way round: addition commutes. -/

section Bridge
variable (cid : (⟨1, ![16384]⟩ : Shape).Idx → BitVec 32) (xid : (⟨2, ![16384, 20]⟩ : Shape).Idx → BitVec 32)
  (emb : (⟨2, ![100000, 128]⟩ : Shape).Idx → EReal) (Wf : (⟨2, ![256, 256]⟩ : Shape).Idx → EReal)
  (bf : (⟨1, ![256]⟩ : Shape).Idx → EReal) (Wu : (⟨2, ![256, 128]⟩ : Shape).Idx → EReal)
  (bu : (⟨1, ![128]⟩ : Shape).Idx → EReal) (Wv : (⟨2, ![256, 1]⟩ : Shape).Idx → EReal)
  (bv : (⟨1, ![1]⟩ : Shape).Idx → EReal)
variable (x0 : Vec Ideal S2048x128 .bf16) (x1 : Vec Ideal S20x2048x128 .bf16) (x2 : Vec Ideal S128x256 .bf16) (x3 : Vec Ideal S128x256 .bf16) (x4 : Vec Ideal S256 .f32)
  (x5 : Vec Ideal S256x128 .bf16) (x6 : Vec Ideal S128 .f32) (x7 : Vec Ideal S256x1 .bf16) (x8 : Vec Ideal S1 .f32)
variable (r : Fin 16384) (p : Fin 2048)

/-- The accumulator after the last trip is the specification's hidden entry. -/
theorem bhid_eq
    (h0 : ∀ d : Fin 128, x0 (ix2 p d) = Cert.Spec.cen cid emb r d)
    (h1 : ∀ (k : Fin 20) (d : Fin 128), x1 (ix3 k p d) = Cert.Spec.ctx xid emb r k d)
    (h2 : ∀ (d : Fin 128) (q : Fin 256), x2 (ix2 d q) = Wf (ix2 (Cert.Spec.upper d) q))
    (h3 : ∀ (d : Fin 128) (q : Fin 256), x3 (ix2 d q) = Wf (ix2 (Cert.Spec.lower d) q))
    (h4 : ∀ q : Fin 256, x4 (ix1 q) = bf (ix1 q)) (q : Fin 256) :
    bhid x0 x1 x2 x3 x4 p q = Cert.Spec.hid cid xid emb Wf bf r q := by
  have hc : bcen x0 x2 p q = Cert.Spec.cproj cid emb Wf r q := by
    unfold bcen Cert.Spec.cproj
    exact Finset.sum_congr rfl fun d _ => by rw [h0, h2]
  have hx : ∀ k : Fin 20, bctx x1 x3 k p q = Cert.Spec.xproj xid emb Wf r k q := fun k => by
    unfold bctx Cert.Spec.xproj
    exact Finset.sum_congr rfl fun d _ => by rw [h1, h3]
  unfold bhid Cert.Spec.hid
  refine congrArg (zeroE + ·) (Finset.sum_congr rfl fun k _ => ?_)
  unfold bslot Cert.Spec.slotTerm
  rw [hc, hx, h4, add_comm (Cert.Spec.xproj xid emb Wf r k q)]

/-- The first stored block is the specification's first result at `r`. -/
theorem bmu_eq
    (h0 : ∀ d : Fin 128, x0 (ix2 p d) = Cert.Spec.cen cid emb r d)
    (h1 : ∀ (k : Fin 20) (d : Fin 128), x1 (ix3 k p d) = Cert.Spec.ctx xid emb r k d)
    (h2 : ∀ (d : Fin 128) (q : Fin 256), x2 (ix2 d q) = Wf (ix2 (Cert.Spec.upper d) q))
    (h3 : ∀ (d : Fin 128) (q : Fin 256), x3 (ix2 d q) = Wf (ix2 (Cert.Spec.lower d) q))
    (h4 : ∀ q : Fin 256, x4 (ix1 q) = bf (ix1 q))
    (h5 : ∀ (h : Fin 256) (l : Fin 128), x5 (ix2 h l) = Wu (ix2 h l))
    (h6 : ∀ l : Fin 128, x6 (ix1 l) = bu (ix1 l)) (l : Fin 128) :
    bmu x0 x1 x2 x3 x4 x5 x6 p l = Cert.Spec.muAt cid xid emb Wf bf Wu bu r l := by
  unfold bmu Cert.Spec.muAt
  rw [h6]
  refine congrArg (· + bu (ix1 l)) (Finset.sum_congr rfl fun h _ => ?_)
  rw [bhid_eq cid xid emb Wf bf x0 x1 x2 x3 x4 r p h0 h1 h2 h3 h4, h5]

/-- The second stored block is the specification's second result at `r`. -/
theorem bsigma_eq
    (h0 : ∀ d : Fin 128, x0 (ix2 p d) = Cert.Spec.cen cid emb r d)
    (h1 : ∀ (k : Fin 20) (d : Fin 128), x1 (ix3 k p d) = Cert.Spec.ctx xid emb r k d)
    (h2 : ∀ (d : Fin 128) (q : Fin 256), x2 (ix2 d q) = Wf (ix2 (Cert.Spec.upper d) q))
    (h3 : ∀ (d : Fin 128) (q : Fin 256), x3 (ix2 d q) = Wf (ix2 (Cert.Spec.lower d) q))
    (h4 : ∀ q : Fin 256, x4 (ix1 q) = bf (ix1 q))
    (h7 : ∀ h : Fin 256, x7 (ix2 h (0 : Fin 1)) = Wv (ix2 h (0 : Fin 1)))
    (h8 : x8 (ix1 (0 : Fin 1)) = bv (ix1 (0 : Fin 1))) :
    bsigma x0 x1 x2 x3 x4 x7 x8 p = Cert.Spec.sigmaAt cid xid emb Wf bf Wv bv r := by
  unfold bsigma Cert.Spec.sigmaAt
  rw [h8]
  refine congrArg Ideal.exp (congrArg (· + bv (ix1 (0 : Fin 1))) (Finset.sum_congr rfl fun h _ => ?_))
  rw [bhid_eq cid xid emb Wf bf x0 x1 x2 x3 x4 r p h0 h1 h2 h3 h4, h7]

end Bridge

end Cert.KernelIdeal.BodyValue

end
-- ==== Proof.Arrays.lean ====
/-
  From the grid's blocks to the two result arrays.

  The grid has 8 points; point t sees batch entries t·2048 … t·2048 + 2047: the centre window and the two output windows
  move along the batch axis with t, the context window along its second axis (the slot axis is whole), and the weight,
  bias and head windows are whole arrays at every point. So local row p at point t is batch entry t·2048 + p, what the
  point writes back is the specification's block of rows there, the 8 blocks tile the 16384 rows, and after the run each
  result array is the specification's array.
-/
import proofs.«119598_j54614804136064_2_alg».proof.Proof.Found
import proofs.«119598_j54614804136064_2_alg».proof.Proof.BodyValue

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Body Cert.KernelIdeal.BodyValue Cert.KernelIdeal.Found
open Cert.Spec

variable (m : (ℓ : Loc nD τ sig) → Buf (Elt Ideal) ℓ) (ρ : Dev nD → PrngReg)

/-- The specification's first result of core `c`'s arguments. -/
abbrev muOf (c : Dev nD) : S16384x128.Idx → EReal := mu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The specification's second result of core `c`'s arguments. -/
abbrev sigmaOf (c : Dev nD) : S16384x1.Idx → EReal := sigma (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))

/-! ## The printed index maps, decided over the 8 points -/

theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem point_lt (t : Fin cfg0.N) : t.val < 8 := lt_of_lt_of_eq t.isLt N_0

/-- The batch entry local row `p` is at point `t`. -/
def rowAt (t : Fin cfg0.N) (p : Fin 2048) : Fin 16384 :=
  ⟨t.val * 2048 + p.val, by have := point_lt t; have := p.isLt; omega⟩

/-! ## What each input window's block holds -/

theorem read0 (c : Dev nD) (t : Fin cfg0.N) (p : Fin 2048) (d : Fin 128) :
    iblk m c 0 t (ix2 p d) = cen (m ((c : Thread nD τ).loc main_arg0)) (m ((c : Thread nD τ).loc main_arg2)) (rowAt t p) d := by
  have e : ((cfg0.win 0).blk t).view.emb (ix2 p d) = ix2 (rowAt t p) d := by
    obtain ⟨e0, e1, -⟩ := idx_facts t
    funext a; apply Fin.ext
    match a with
    | ⟨0, _⟩ => show win0_0.index t (0 : Fin 2) * 2048 + 1 * p.val = t.val * 2048 + p.val; rw [e0]; omega
    | ⟨1, _⟩ => show win0_0.index t (1 : Fin 2) * 128 + 1 * d.val = d.val; rw [e1]; omega
  show (V m c main_v7 : S16384x128.Idx → EReal) (((cfg0.win 0).blk t).view.emb (ix2 p d)) = _
  rw [e]
  exact centre_found m c (rowAt t p) d

theorem read1 (c : Dev nD) (t : Fin cfg0.N) (k : Fin 20) (p : Fin 2048) (d : Fin 128) :
    iblk m c 1 t (ix3 k p d) = ctx (m ((c : Thread nD τ).loc main_arg1)) (m ((c : Thread nD τ).loc main_arg2)) (rowAt t p) k d := by
  have e : ((cfg0.win 1).blk t).view.emb (ix3 k p d) = ix3 k (rowAt t p) d := by
    obtain ⟨-, -, e0, e1, e2, -⟩ := idx_facts t
    funext a; apply Fin.ext
    match a with
    | ⟨0, _⟩ => show win0_1.index t (0 : Fin 3) * 20 + 1 * k.val = k.val; rw [e0]; omega
    | ⟨1, _⟩ => show win0_1.index t (1 : Fin 3) * 2048 + 1 * p.val = t.val * 2048 + p.val; rw [e1]; omega
    | ⟨2, _⟩ => show win0_1.index t (2 : Fin 3) * 128 + 1 * d.val = d.val; rw [e2]; omega
  show (V m c main_v15 : S20x16384x128.Idx → EReal) (((cfg0.win 1).blk t).view.emb (ix3 k p d)) = _
  rw [e]
  exact context_found m c k (rowAt t p) d

theorem read2 (c : Dev nD) (t : Fin cfg0.N) (d : Fin 128) (q : Fin 256) :
    iblk m c 2 t (ix2 d q) = (m ((c : Thread nD τ).loc main_arg3)) (ix2 (upper d) q) := by
  have e : ((cfg0.win 2).blk t).view.emb (ix2 d q) = ix2 d q := by
    obtain ⟨-, -, -, -, -, e0, e1, -⟩ := idx_facts t
    funext a; apply Fin.ext
    match a with
    | ⟨0, _⟩ => show win0_2.index t (0 : Fin 2) * 128 + 1 * d.val = d.val; rw [e0]; omega
    | ⟨1, _⟩ => show win0_2.index t (1 : Fin 2) * 256 + 1 * q.val = q.val; rw [e1]; omega
  show (V m c main_v17 : S128x256.Idx → EReal) (((cfg0.win 2).blk t).view.emb (ix2 d q)) = _
  rw [e]
  exact upper_found m c d q

theorem read3 (c : Dev nD) (t : Fin cfg0.N) (d : Fin 128) (q : Fin 256) :
    iblk m c 3 t (ix2 d q) = (m ((c : Thread nD τ).loc main_arg3)) (ix2 (lower d) q) := by
  have e : ((cfg0.win 3).blk t).view.emb (ix2 d q) = ix2 d q := by
    obtain ⟨-, -, -, -, -, -, -, e0, e1, -⟩ := idx_facts t
    funext a; apply Fin.ext
    match a with
    | ⟨0, _⟩ => show win0_3.index t (0 : Fin 2) * 128 + 1 * d.val = d.val; rw [e0]; omega
    | ⟨1, _⟩ => show win0_3.index t (1 : Fin 2) * 256 + 1 * q.val = q.val; rw [e1]; omega
  show (V m c main_v19 : S128x256.Idx → EReal) (((cfg0.win 3).blk t).view.emb (ix2 d q)) = _
  rw [e]
  exact lower_found m c d q

theorem read4 (c : Dev nD) (t : Fin cfg0.N) (q : Fin 256) :
    iblk m c 4 t (ix1 q) = (m ((c : Thread nD τ).loc main_arg4)) (ix1 q) := by
  have e : ((cfg0.win 4).blk t).view.emb (ix1 q) = ix1 q := by
    obtain ⟨-, -, -, -, -, -, -, -, -, e0, -⟩ := idx_facts t
    funext a; apply Fin.ext
    match a with
    | ⟨0, _⟩ => show win0_4.index t (0 : Fin 1) * 256 + 1 * q.val = q.val; rw [e0]; omega
  show (V m c main_arg4 : S256.Idx → EReal) (((cfg0.win 4).blk t).view.emb (ix1 q)) = _
  rw [e, V_main_arg4]

theorem read5 (c : Dev nD) (t : Fin cfg0.N) (h : Fin 256) (l : Fin 128) :
    iblk m c 5 t (ix2 h l) = (m ((c : Thread nD τ).loc main_arg5)) (ix2 h l) := by
  have e : ((cfg0.win 5).blk t).view.emb (ix2 h l) = ix2 h l := by
    obtain ⟨-, -, -, -, -, -, -, -, -, -, e0, e1, -⟩ := idx_facts t
    funext a; apply Fin.ext
    match a with
    | ⟨0, _⟩ => show win0_5.index t (0 : Fin 2) * 256 + 1 * h.val = h.val; rw [e0]; omega
    | ⟨1, _⟩ => show win0_5.index t (1 : Fin 2) * 128 + 1 * l.val = l.val; rw [e1]; omega
  show (V m c main_v20 : S256x128.Idx → EReal) (((cfg0.win 5).blk t).view.emb (ix2 h l)) = _
  rw [e, V_head1]

theorem read6 (c : Dev nD) (t : Fin cfg0.N) (l : Fin 128) :
    iblk m c 6 t (ix1 l) = (m ((c : Thread nD τ).loc main_arg6)) (ix1 l) := by
  have e : ((cfg0.win 6).blk t).view.emb (ix1 l) = ix1 l := by
    obtain ⟨-, -, -, -, -, -, -, -, -, -, -, -, e0, -⟩ := idx_facts t
    funext a; apply Fin.ext
    match a with
    | ⟨0, _⟩ => show win0_6.index t (0 : Fin 1) * 128 + 1 * l.val = l.val; rw [e0]; omega
  show (V m c main_arg6 : S128.Idx → EReal) (((cfg0.win 6).blk t).view.emb (ix1 l)) = _
  rw [e, V_main_arg6]

theorem read7 (c : Dev nD) (t : Fin cfg0.N) (h : Fin 256) :
    iblk m c 7 t (ix2 h (0 : Fin 1)) = (m ((c : Thread nD τ).loc main_arg7)) (ix2 h (0 : Fin 1)) := by
  have e : ((cfg0.win 7).blk t).view.emb (ix2 h (0 : Fin 1)) = ix2 h (0 : Fin 1) := by
    obtain ⟨-, -, -, -, -, -, -, -, -, -, -, -, -, e0, e1, -⟩ := idx_facts t
    funext a; apply Fin.ext
    match a with
    | ⟨0, _⟩ => show win0_7.index t (0 : Fin 2) * 256 + 1 * h.val = h.val; rw [e0]; omega
    | ⟨1, _⟩ => show win0_7.index t (1 : Fin 2) * 1 + 1 * 0 = 0; rw [e1]
  show (V m c main_v21 : S256x1.Idx → EReal) (((cfg0.win 7).blk t).view.emb (ix2 h (0 : Fin 1))) = _
  rw [e, V_head2]

theorem read8 (c : Dev nD) (t : Fin cfg0.N) :
    iblk m c 8 t (ix1 (0 : Fin 1)) = (m ((c : Thread nD τ).loc main_arg8)) (ix1 (0 : Fin 1)) := by
  have e : ((cfg0.win 8).blk t).view.emb (ix1 (0 : Fin 1)) = ix1 (0 : Fin 1) := by
    obtain ⟨-, -, -, -, -, -, -, -, -, -, -, -, -, -, -, e0, -⟩ := idx_facts t
    funext a; apply Fin.ext
    match a with
    | ⟨0, _⟩ => show win0_8.index t (0 : Fin 1) * 1 + 1 * 0 = 0; rw [e0]
  show (V m c main_arg8 : S1.Idx → EReal) (((cfg0.win 8).blk t).view.emb (ix1 (0 : Fin 1))) = _
  rw [e, V_main_arg8]

/-! ## What a point writes back -/

/-- Point `t` writes back the specification's first result on its 2048 rows. -/
theorem flushed9_eq (c : Dev nD) (t : Fin cfg0.N) :
    (dats m 0 c).flushed 9 t = ((cfg0.win 9).blk t).view.read (Elt Ideal) (muOf m c) := by
  rw [Value.flushed9_A]
  funext j
  obtain ⟨p, l, rfl⟩ : ∃ (p : Fin 2048) (l : Fin 128), j = ix2 p l := ⟨j 0, j 1, eq_ix2 j⟩
  have e : ((cfg0.win 9).blk t).view.emb (ix2 p l) = ix2 (rowAt t p) l := by
    obtain ⟨-, -, -, -, -, -, -, -, -, -, -, -, -, -, -, -, e0, e1, -⟩ := idx_facts t
    funext a; apply Fin.ext
    match a with
    | ⟨0, _⟩ => show win0_9.index t (0 : Fin 2) * 2048 + 1 * p.val = t.val * 2048 + p.val; rw [e0]; omega
    | ⟨1, _⟩ => show win0_9.index t (1 : Fin 2) * 128 + 1 * l.val = l.val; rw [e1]; omega
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (ix2 p l) = muOf m c (((cfg0.win 9).blk t).view.emb (ix2 p l))
  rw [e]
  refine (congrFun (out9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t)) (ix2 p l)).trans ?_
  refine (pay4_at (iblk m c 0 t) (iblk m c 1 t) (iblk m c 2 t) (iblk m c 3 t) (iblk m c 4 t) (iblk m c 5 t) (iblk m c 6 t) p l).trans ?_
  exact bmu_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk m c 0 t) (iblk m c 1 t) (iblk m c 2 t) (iblk m c 3 t) (iblk m c 4 t) (iblk m c 5 t) (iblk m c 6 t) (rowAt t p) p
    (read0 m c t p) (fun k d => read1 m c t k p d) (read2 m c t) (read3 m c t) (read4 m c t) (read5 m c t)
    (read6 m c t) l

/-- Point `t` writes back the specification's second result on its 2048 rows. -/
theorem flushed10_eq (c : Dev nD) (t : Fin cfg0.N) :
    (dats m 0 c).flushed 10 t = ((cfg0.win 10).blk t).view.read (Elt Ideal) (sigmaOf m c) := by
  rw [Value.flushed10_A]
  funext j
  obtain ⟨p, u, rfl⟩ : ∃ (p : Fin 2048) (u : Fin 1), j = ix2 p u := ⟨j 0, j 1, eq_ix2 j⟩
  obtain rfl : u = 0 := Subsingleton.elim _ _
  have e : ((cfg0.win 10).blk t).view.emb (ix2 p (0 : Fin 1)) = ix2 (rowAt t p) (0 : Fin 1) := by
    obtain ⟨-, -, -, -, -, -, -, -, -, -, -, -, -, -, -, -, -, -, e0, e1⟩ := idx_facts t
    funext a; apply Fin.ext
    match a with
    | ⟨0, _⟩ => show win0_10.index t (0 : Fin 2) * 2048 + 1 * p.val = t.val * 2048 + p.val; rw [e0]; omega
    | ⟨1, _⟩ => show win0_10.index t (1 : Fin 2) * 1 + 1 * 0 = 0; rw [e1]
  show out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (ix2 p (0 : Fin 1))
    = sigmaOf m c (((cfg0.win 10).blk t).view.emb (ix2 p (0 : Fin 1)))
  rw [e]
  refine (congrFun (out10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t)) (ix2 p (0 : Fin 1))).trans ?_
  refine (pay5_at (iblk m c 0 t) (iblk m c 1 t) (iblk m c 2 t) (iblk m c 3 t) (iblk m c 4 t) (iblk m c 7 t) (iblk m c 8 t) p).trans ?_
  exact bsigma_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (iblk m c 0 t) (iblk m c 1 t) (iblk m c 2 t) (iblk m c 3 t) (iblk m c 4 t) (iblk m c 7 t) (iblk m c 8 t) (rowAt t p) p
    (read0 m c t p) (fun k d => read1 m c t k p d) (read2 m c t) (read3 m c t) (read4 m c t) (read7 m c t)
    (read8 m c t)

/-! ## The blocks tile the rows -/

theorem mem_blk9 (t : Fin cfg0.N) (i : S16384x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v22_0).slice (win0_9.rect t)).set ↔ _
  rw [View.set_slice_whole, Rect.mem_set_unit]
  exact Iff.rfl

theorem mem_blk10 (t : Fin cfg0.N) (i : S16384x1.Idx) :
    i ∈ ((cfg0.win 10).blk t).view.set ↔ ∀ a : Fin 2, win0_10.index t a * S2048x1.size a ≤ (i a).val
      ∧ (i a).val < win0_10.index t a * S2048x1.size a + S2048x1.size a := by
  show i ∈ ((View.whole main_v22_1).slice (win0_10.rect t)).set ↔ _
  rw [View.set_slice_whole, Rect.mem_set_unit]
  exact Iff.rfl

/-- Row `r` is in the block of point `r / 2048`. -/
theorem cover9 (i : S16384x128.Idx) :
    ∃ t : Fin cfg0.N, (cfg0.win 9).flush t = true ∧ i ∈ ((cfg0.win 9).blk t).view.set := by
  have hi0 : (i 0).val < 16384 := (i 0).isLt
  have hi1 : (i 1).val < 128 := (i 1).isLt
  have hN : (i 0).val / 2048 < cfg0.N := by rw [show cfg0.N = 8 from N_0]; omega
  refine ⟨⟨(i 0).val / 2048, hN⟩, flush0_9 _, ?_⟩
  rw [mem_blk9]
  obtain ⟨-, -, -, -, -, -, -, -, -, -, -, -, -, -, -, -, e0, e1, -⟩ := idx_facts ⟨(i 0).val / 2048, hN⟩
  intro a
  match a with
  | ⟨0, _⟩ =>
    show win0_9.index ⟨(i 0).val / 2048, hN⟩ (0 : Fin 2) * 2048 ≤ (i 0).val
      ∧ (i 0).val < win0_9.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win0_9.index ⟨(i 0).val / 2048, hN⟩ (1 : Fin 2) * 128 ≤ (i 1).val
      ∧ (i 1).val < win0_9.index ⟨(i 0).val / 2048, hN⟩ (1 : Fin 2) * 128 + 128
    rw [e1]; omega

theorem cover10 (i : S16384x1.Idx) :
    ∃ t : Fin cfg0.N, (cfg0.win 10).flush t = true ∧ i ∈ ((cfg0.win 10).blk t).view.set := by
  have hi0 : (i 0).val < 16384 := (i 0).isLt
  have hi1 : (i 1).val < 1 := (i 1).isLt
  have hN : (i 0).val / 2048 < cfg0.N := by rw [show cfg0.N = 8 from N_0]; omega
  refine ⟨⟨(i 0).val / 2048, hN⟩, flush0_10 _, ?_⟩
  rw [mem_blk10]
  obtain ⟨-, -, -, -, -, -, -, -, -, -, -, -, -, -, -, -, -, -, e0, e1⟩ := idx_facts ⟨(i 0).val / 2048, hN⟩
  intro a
  match a with
  | ⟨0, _⟩ =>
    show win0_10.index ⟨(i 0).val / 2048, hN⟩ (0 : Fin 2) * 2048 ≤ (i 0).val
      ∧ (i 0).val < win0_10.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win0_10.index ⟨(i 0).val / 2048, hN⟩ (1 : Fin 2) * 1 ≤ (i 1).val
      ∧ (i 1).val < win0_10.index ⟨(i 0).val / 2048, hN⟩ (1 : Fin 2) * 1 + 1
    rw [e1]; omega

/-! ## The arrays after the run -/

theorem final9 (c : Dev nD) : (dats m 0 c).arrAt 9 cfg0.N = muOf m c :=
  (dats m 0 c).arrAt_eq_of_cover 9 (muOf m c) (fun t _ => flushed9_eq m c t) cover9

theorem final10 (c : Dev nD) : (dats m 0 c).arrAt 10 cfg0.N = sigmaOf m c :=
  (dats m 0 c).arrAt_eq_of_cover 10 (sigmaOf m c) (fun t _ => flushed10_eq m c t) cover10

/-- The kernel's run: each result array ends at the specification's array of the arguments, the arguments unchanged. -/
theorem run : θ_run defs (onTc (τ := τ) (main (F := Ideal))) ⟨m, fun _ => 0, ρ⟩ fun r => ∀ c : Dev nD,
      r.2.mem ((c : Thread nD τ).loc main_v22_0) = muOf m c
      ∧ r.2.mem ((c : Thread nD τ).loc main_v22_1) = sigmaOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono
    (fun r h c => ⟨(h c).1.trans (final9 m c), (h c).2.1.trans (final10 m c), (h c).2.2⟩)
    (Value.run_blocks m ρ)

end Cert.KernelIdeal.Arrays

end
-- ==== Proof.RefValue.lean ====
/-
  The reference program's two results, stage by stage, are the specification's arrays.

  The reference gathers the centre rows and the context rows from the table, multiplies the centre rows by the upper half
  of the weight and every context row by the lower half, adds the two products and the bias, takes the maximum with
  zero, sums over the 20 context slots from zero, and applies the two heads. Each stage is read at an index given by
  its coordinates; the two gathers, which the generated reading lemmas leave out, are read with the row-gather lemma.
-/
import proofs.«119598_j54614804136064_2_alg».proof.Proof.Gen.ReferenceIdeal.Read
import proofs.«119598_j54614804136064_2_alg».proof.Proof.Spec

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec

/-- The wrapped centre id of batch entry `b`, as the start index the first gather reads. -/
theorem startIdx_centre (x0 : (⟨S16384, .i32⟩ : BufTy).Contents (Elt Ideal)) (b : Fin 16384) :
    val_main_v5 (F := Ideal) x0 (ix2 b (0 : Fin 1)) = wrapId (x0 (ix1 b)) := by
  have e : idx_main_v5 (ix2 b (0 : Fin 1)) = ix1 b := funext fun a => Fin.ext (by match a with | ⟨0, _⟩ => rfl)
  rw [val_main_v5_apply, e, val_main_v4_apply, val_main_v1_apply, val_main_v3_apply, val_main_v0_apply,
    val_main_v2_apply, val_main_c_apply, val_main_c_0_apply]
  rfl

/-- The wrapped context id of batch entry `b`, slot `k`, as the start index the second gather reads. -/
theorem startIdx_context (x1 : (⟨S16384x20, .i32⟩ : BufTy).Contents (Elt Ideal)) (b : Fin 16384) (k : Fin 20) :
    val_main_v12 (F := Ideal) x1 (ix3 b k (0 : Fin 1)) = wrapId (x1 (ix2 b k)) := by
  have e : idx_main_v12 (ix3 b k (0 : Fin 1)) = ix2 b k := funext fun a => Fin.ext (by match a with | ⟨0, _⟩ => rfl | ⟨1, _⟩ => rfl)
  rw [val_main_v12_apply, e, val_main_v11_apply, val_main_v8_apply, val_main_v10_apply, val_main_v7_apply,
    val_main_v9_apply, val_main_c_1_apply, val_main_c_2_apply]
  rfl

/-- The gathered centre rows are the specification's centre embeddings. -/
theorem centre_at (x0 : (⟨S16384, .i32⟩ : BufTy).Contents (Elt Ideal)) (x2 : (⟨S100000x128, .f32⟩ : BufTy).Contents (Elt Ideal)) (b : Fin 16384) (d : Fin 128) :
    val_main_v6 (F := Ideal) x0 x2 (ix2 b d) = cen x0 x2 b d := by
  unfold val_main_v6
  rw [show gather_S100000x128_S16384x1_S16384x128_1_0_n_n_0_1_1128
      = Cert.LibGatherRows.rowDims2 100000 128 16384 Facts₀.gather_S100000x128_S16384x1_S16384x128_1_0_n_n_0_1_1128_wf from rfl,
    Cert.LibGatherRows.gather_rows2_apply (by decide), startIdx_centre]
  rfl

/-- The gathered context rows are the specification's context embeddings. -/
theorem context_at (x1 : (⟨S16384x20, .i32⟩ : BufTy).Contents (Elt Ideal)) (x2 : (⟨S100000x128, .f32⟩ : BufTy).Contents (Elt Ideal)) (b : Fin 16384) (k : Fin 20) (d : Fin 128) :
    val_main_v13 (F := Ideal) x1 x2 (ix3 b k d) = ctx x1 x2 b k d := by
  unfold val_main_v13
  rw [show gather_S100000x128_S16384x20x1_S16384x20x128_2_0_n_n_0_2_1128
      = Cert.LibGatherRows.rowDims3 100000 128 16384 20 Facts₀.gather_S100000x128_S16384x20x1_S16384x20x128_2_0_n_n_0_2_1128_wf from rfl,
    Cert.LibGatherRows.gather_rows3_apply (by decide), startIdx_context]
  rfl

/-- The centre rows against the weight's upper half. -/
theorem cproj_at (x0 : (⟨S16384, .i32⟩ : BufTy).Contents (Elt Ideal)) (x2 : (⟨S100000x128, .f32⟩ : BufTy).Contents (Elt Ideal)) (x3 : (⟨S256x256, .f32⟩ : BufTy).Contents (Elt Ideal)) (b : Fin 16384) (h : Fin 256) :
    val_main_v16 (F := Ideal) x0 x2 x3 (ix2 b h) = cproj x0 x2 x3 b h := by
  rw [val_main_v16_apply]
  unfold cproj
  refine Finset.sum_congr rfl fun d _ => ?_
  have el : lidx_main_v16 (ix2 b h) d = ix2 b d := funext fun a => Fin.ext (by match a with | ⟨0, _⟩ => rfl | ⟨1, _⟩ => rfl)
  have er : idx_main_v14 (ridx_main_v16 (ix2 b h) d) = ix2 (upper d) h := funext fun a => Fin.ext (by match a with | ⟨0, _⟩ => rfl | ⟨1, _⟩ => rfl)
  rw [el, centre_at, val_main_v14_apply, er]

/-- The context rows against the weight's lower half. -/
theorem xproj_at (x1 : (⟨S16384x20, .i32⟩ : BufTy).Contents (Elt Ideal)) (x2 : (⟨S100000x128, .f32⟩ : BufTy).Contents (Elt Ideal)) (x3 : (⟨S256x256, .f32⟩ : BufTy).Contents (Elt Ideal)) (b : Fin 16384) (k : Fin 20) (h : Fin 256) :
    val_main_v18 (F := Ideal) x1 x2 x3 (ix3 b k h) = xproj x1 x2 x3 b k h := by
  rw [val_main_v18_apply]
  unfold xproj
  refine Finset.sum_congr rfl fun d _ => ?_
  have el : lidx_main_v18 (ix3 b k h) d = ix3 b k d := funext fun a => Fin.ext (by match a with | ⟨0, _⟩ => rfl | ⟨1, _⟩ => rfl | ⟨2, _⟩ => rfl)
  have er : idx_main_v15 (ridx_main_v18 (ix3 b k h) d) = ix2 (lower d) h := funext fun a => Fin.ext (by match a with | ⟨0, _⟩ => rfl | ⟨1, _⟩ => rfl)
  rw [el, context_at, val_main_v15_apply, er]

/-- One slot's rectified term. -/
theorem slot_at (x0 : (⟨S16384, .i32⟩ : BufTy).Contents (Elt Ideal)) (x1 : (⟨S16384x20, .i32⟩ : BufTy).Contents (Elt Ideal)) (x2 : (⟨S100000x128, .f32⟩ : BufTy).Contents (Elt Ideal)) (x3 : (⟨S256x256, .f32⟩ : BufTy).Contents (Elt Ideal)) (x4 : (⟨S256, .f32⟩ : BufTy).Contents (Elt Ideal)) (b : Fin 16384) (k : Fin 20) (h : Fin 256) :
    val_main_v24 (F := Ideal) x0 x1 x2 x3 x4 (ix3 b k h) = slotTerm x0 x1 x2 x3 x4 b k h := by
  have e1 : idx_main_v17 (idx_main_v19 (ix3 b k h)) = ix2 b h := funext fun a => Fin.ext (by match a with | ⟨0, _⟩ => rfl | ⟨1, _⟩ => rfl)
  have e2 : idx_main_v21 (idx_main_v22 (ix3 b k h)) = ix1 h := funext fun a => Fin.ext (by match a with | ⟨0, _⟩ => rfl)
  rw [val_main_v24_apply, val_main_v23_apply, val_main_v20_apply, val_main_v19_apply, val_main_v17_apply, e1,
    cproj_at, xproj_at, val_main_v22_apply, val_main_v21_apply, e2, val_main_call0_v0_apply, val_main_call0_cst_apply]
  rfl

/-- The hidden entry: the slots summed from zero. -/
theorem hid_at (x0 : (⟨S16384, .i32⟩ : BufTy).Contents (Elt Ideal)) (x1 : (⟨S16384x20, .i32⟩ : BufTy).Contents (Elt Ideal)) (x2 : (⟨S100000x128, .f32⟩ : BufTy).Contents (Elt Ideal)) (x3 : (⟨S256x256, .f32⟩ : BufTy).Contents (Elt Ideal)) (x4 : (⟨S256, .f32⟩ : BufTy).Contents (Elt Ideal)) (b : Fin 16384) (h : Fin 256) :
    val_main_v25 (F := Ideal) x0 x1 x2 x3 x4 (ix2 b h) = hid x0 x1 x2 x3 x4 b h := by
  rw [val_main_v25_apply, val_main_cst_apply]
  unfold hid
  refine congrArg (zeroE + ·) (Finset.sum_congr rfl fun k _ => ?_)
  have e : idx_main_v25 (ix2 b h) k = ix3 b k h := funext fun a => Fin.ext (by match a with | ⟨0, _⟩ => rfl | ⟨1, _⟩ => rfl | ⟨2, _⟩ => rfl)
  rw [e, slot_at]

/-- The first result is the specification's. -/
theorem mu_eq (x0 : (⟨S16384, .i32⟩ : BufTy).Contents (Elt Ideal)) (x1 : (⟨S16384x20, .i32⟩ : BufTy).Contents (Elt Ideal)) (x2 : (⟨S100000x128, .f32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) :
    val_main_v29 (F := Ideal) x0 x1 x2 x3 x4 x5 x6 = mu x0 x1 x2 x3 x4 x5 x6 := by
  funext i
  obtain ⟨b, l, rfl⟩ : ∃ (b : Fin 16384) (l : Fin 128), i = ix2 b l := ⟨i 0, i 1, eq_ix2 i⟩
  rw [mu_ix2, val_main_v29_apply, val_main_v26_apply, val_main_v28_apply, val_main_v27_apply]
  have e : idx_main_v27 (idx_main_v28 (ix2 b l)) = ix1 l := funext fun a => Fin.ext (by match a with | ⟨0, _⟩ => rfl)
  rw [e]
  unfold muAt
  refine congrArg (· + x6 (ix1 l)) (Finset.sum_congr rfl fun h _ => ?_)
  have el : lidx_main_v26 (ix2 b l) h = ix2 b h := funext fun a => Fin.ext (by match a with | ⟨0, _⟩ => rfl | ⟨1, _⟩ => rfl)
  have er : ridx_main_v26 (ix2 b l) h = ix2 h l := funext fun a => Fin.ext (by match a with | ⟨0, _⟩ => rfl | ⟨1, _⟩ => rfl)
  rw [el, er, hid_at]

/-- The second result is the specification's. -/
theorem sigma_eq (x0 : (⟨S16384, .i32⟩ : BufTy).Contents (Elt Ideal)) (x1 : (⟨S16384x20, .i32⟩ : BufTy).Contents (Elt Ideal)) (x2 : (⟨S100000x128, .f32⟩ : BufTy).Contents (Elt Ideal)) (x3 : (⟨S256x256, .f32⟩ : BufTy).Contents (Elt Ideal)) (x4 : (⟨S256, .f32⟩ : BufTy).Contents (Elt Ideal)) (x7 : (⟨S256x1, .f32⟩ : BufTy).Contents (Elt Ideal)) (x8 : (⟨S1, .f32⟩ : BufTy).Contents (Elt Ideal)) :
    val_main_v34 (F := Ideal) x0 x1 x2 x3 x4 x7 x8 = sigma x0 x1 x2 x3 x4 x7 x8 := by
  funext i
  obtain ⟨b, u, rfl⟩ : ∃ (b : Fin 16384) (u : Fin 1), i = ix2 b u := ⟨i 0, i 1, eq_ix2 i⟩
  obtain rfl : u = 0 := Subsingleton.elim _ _
  rw [sigma_ix2, val_main_v34_apply, val_main_v33_apply, val_main_v30_apply, val_main_v32_apply, val_main_v31_apply]
  have e : idx_main_v31 (idx_main_v32 (ix2 b (0 : Fin 1))) = ix1 (0 : Fin 1) := funext fun a => Fin.ext (by match a with | ⟨0, _⟩ => rfl)
  rw [e]
  unfold sigmaAt
  rw [Ideal.hostUnary_exp_def]
  refine congrArg Ideal.exp (congrArg (· + x8 (ix1 (0 : Fin 1))) (Finset.sum_congr rfl fun h _ => ?_))
  have el : lidx_main_v30 (ix2 b (0 : Fin 1)) h = ix2 b h := funext fun a => Fin.ext (by match a with | ⟨0, _⟩ => rfl | ⟨1, _⟩ => rfl)
  have er : ridx_main_v30 (ix2 b (0 : Fin 1)) h = ix2 h (0 : Fin 1) := funext fun a => Fin.ext (by match a with | ⟨0, _⟩ => rfl | ⟨1, _⟩ => rfl)
  rw [el, er, hid_at]

end Cert.ReferenceIdeal.RefValue

end
-- ==== Proof.lean ====
/-
  The kernel against its reference, on the extended reals.

  Both programs take 16384 centre ids, a [16384, 20] matrix of context ids, an embedding table, a [256, 256] weight, a
  bias and two heads, and return a [16384, 128] array and a [16384, 1] array. For every batch entry both gather its
  centre row and its 20 context rows from the table, project them through the two halves of the weight, sum over the
  slots the maximum of (the two projections plus the bias) and zero, and apply the heads; the second result is the
  exponential of its head.

  The kernel differs from the reference in four ways, none of which changes an extended real. It narrows the float
  format of the table and the weights before use: a change of format is the identity on extended reals. It transposes
  the id matrix before the gather, so its context array is laid out slot first: the same rows at permuted positions. It
  works on 8 blocks of 2048 batch entries, one per grid point: every entry of the results depends on one batch entry,
  and the 8 blocks tile the batch. And inside a block it accumulates the 20 slots one at a time from zero, adding the
  context projection to the centre projection rather than the other way round: sums on the extended reals are
  associative and commutative. No precondition is used for the values; the frames are the generated ones, and the
  reference's frame is its run with the results dropped.
-/
import proofs.«119598_j54614804136064_2_alg».proof.Defs
import proofs.«119598_j54614804136064_2_alg».proof.Proof.Gen.Kernel
import proofs.«119598_j54614804136064_2_alg».proof.Proof.Gen.Kernel.Skeleton
import proofs.«119598_j54614804136064_2_alg».proof.Proof.Gen.Kernel.Loops
import proofs.«119598_j54614804136064_2_alg».proof.Proof.Gen.Kernel.Launch
import proofs.«119598_j54614804136064_2_alg».proof.Proof.Gen.Kernel.Points
import proofs.«119598_j54614804136064_2_alg».proof.Proof.Gen.Kernel.Frame
import proofs.«119598_j54614804136064_2_alg».proof.Proof.Gen.KernelIdeal
import proofs.«119598_j54614804136064_2_alg».proof.Proof.Gen.KernelIdeal.Skeleton
import proofs.«119598_j54614804136064_2_alg».proof.Proof.Gen.KernelIdeal.Loops
import proofs.«119598_j54614804136064_2_alg».proof.Proof.Gen.KernelIdeal.Launch
import proofs.«119598_j54614804136064_2_alg».proof.Proof.Gen.KernelIdeal.Points
import proofs.«119598_j54614804136064_2_alg».proof.Proof.Gen.KernelIdeal.Frame
import proofs.«119598_j54614804136064_2_alg».proof.Proof.Gen.ReferenceIdeal
import proofs.«119598_j54614804136064_2_alg».proof.Proof.Gen.Pre_finite_inputs
import proofs.«119598_j54614804136064_2_alg».proof.Proof.Gen.KernelIdeal.Value
import proofs.«119598_j54614804136064_2_alg».proof.Proof.Gen.ReferenceIdeal.Run
import proofs.«119598_j54614804136064_2_alg».proof.Proof.Gen.ReferenceIdeal.Read
import proofs.«119598_j54614804136064_2_alg».proof.Proof.Arrays
import proofs.«119598_j54614804136064_2_alg».proof.Proof.RefValue
import Idealize.ShloMosaic.Adequacy
import Idealize.ShloMosaic.Init

noncomputable section

namespace Cert.Proof

open Idealize.ShloMosaic Idealize.SL.Sem

/-- The word-level kernel terminates, does not fault and leaves its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories that agree on the arguments, both programs end with the specification's two arrays of those
    arguments. -/
theorem algebraic : Cert.algebraic_KernelIdeal_ReferenceIdeal := by
  intro m ρ m' ρ' _ hagree
  refine ⟨fun c => Cert.KernelIdeal.Arrays.muOf m c, fun c => Cert.KernelIdeal.Arrays.sigmaOf m c,
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8⟩ := hagree c
    rw [(h c).1, Cert.ReferenceIdeal.Read.val_main_v29_eq, Cert.ReferenceIdeal.RefValue.mu_eq,
      a0, a1, a2, a3, a4, a5, a6]
  · obtain ⟨a0, a1, a2, a3, a4, a5, a6, a7, a8⟩ := hagree c
    rw [(h c).2.1, Cert.ReferenceIdeal.Read.val_main_v34_eq, Cert.ReferenceIdeal.RefValue.sigma_eq,
      a0, a1, a2, a3, a4, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
